-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2 : Shape := ⟨2, ![50000, 2]⟩
abbrev S2x800000 : Shape := ⟨2, ![2, 800000]⟩
abbrev S50000 : Shape := ⟨1, ![50000]⟩
abbrev S5000 : Shape := ⟨1, ![5000]⟩
abbrev S2x128 : Shape := ⟨2, ![2, 128]⟩
abbrev S128 : Shape := ⟨1, ![128]⟩
abbrev S128x128 : Shape := ⟨2, ![128, 128]⟩
abbrev S3x128x128 : Shape := ⟨3, ![3, 128, 128]⟩
abbrev S3x128 : Shape := ⟨2, ![3, 128]⟩
abbrev S_ : Shape := ⟨0, ![]⟩

class Facts : Prop where
  bcast_S_S50000x2 : S_.BroadcastsInDim S50000x2 (![] : Fin 0 → Fin S50000x2.rank)
  reducesTo_S50000x2_S_d0_1 : S50000x2.ReducesTo [0, 1] S_
  h_S_ : 0 < S_.numel
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part3 {F : FTy → Type} [FloatOps F] (main_arg14 : FVec F S128x128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg14
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg10 : FVec F S3x128x128 .f32) (main_arg11 : FVec F S3x128 .f32) (main_arg12 : FVec F S128x128 .f32) (main_arg13 : FVec F S128 .f32) (main_arg14 : FVec F S128x128 .f32) (main_arg15 : FVec F S128 .f32) (main_v33 : IVec S_ 1) : IVec S_ 1 :=
  let main_v34 : FVec F S3x128x128 .f32 := Host.absf main_arg10
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S3x128 .f32 := Host.absf main_arg11
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_v48 main_v49 main_v50

def fn_part1 {F : FTy → Type} [FloatOps F] (main_arg7 : FVec F S128 .f32) (main_arg8 : FVec F S3x128x128 .f32) (main_arg9 : FVec F S3x128 .f32) (main_arg10 : FVec F S3x128x128 .f32) (main_arg11 : FVec F S3x128 .f32) (main_arg12 : FVec F S128x128 .f32) (main_arg13 : FVec F S128 .f32) (main_arg14 : FVec F S128x128 .f32) (main_arg15 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3x128x128 .f32 := Host.absf main_arg8
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg9
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : FVec F S50000x2 .f32) (main_arg1 : IVec S2x800000 32) (main_arg2 : IVec S50000 32) (main_arg3 : IVec S5000 32) (main_arg4 : FVec F S2x128 .f32) (main_arg5 : FVec F S128 .f32) (main_arg6 : FVec F S128x128 .f32) (main_arg7 : FVec F S128 .f32) (main_arg8 : FVec F S3x128x128 .f32) (main_arg9 : FVec F S3x128 .f32) (main_arg10 : FVec F S3x128x128 .f32) (main_arg11 : FVec F S3x128 .f32) (main_arg12 : FVec F S128x128 .f32) (main_arg13 : FVec F S128 .f32) (main_arg14 : FVec F S128x128 .f32) (main_arg15 : FVec F S128 .f32) : IVec S_ 1 :=
  let main_v0 : FVec F S50000x2 .f32 := Host.absf main_arg0
  let main_cst : FVec F S_ .f32 := constant S_ .f32 0x7F800000#32
  let main_v1 : FVec F S50000x2 .f32 := broadcastInDim S50000x2 ![] bcast_S_S50000x2 main_cst
  let main_v2 : IVec S50000x2 1 := cmpf .olt main_v0 main_v1
  let main_c : IVec S_ 1 := constantI S_ 1 1#1
  let main_v3 : IVec S_ 1 := (fun x v => Host.reduce IntOp.andi x v reducesTo_S50000x2_S_d0_1 h_S_) main_v2 main_c
  let main_v4 : FVec F S2x128 .f32 := Host.absf main_arg4
  let main_cst_0 : FVec F S_ .f32 := constant S_ .f32 0x7F800000#32
  let main_v5 : FVec F S2x128 .f32 := broadcastInDim S2x128 ![] bcast_S_S2x128 main_cst_0
  let main_v6 : IVec S2x128 1 := cmpf .olt main_v4 main_v5
  let main_c_1 : IVec S_ 1 := constantI S_ 1 1#1
  let main_v7 : IVec S_ 1 := (fun x v => Host.reduce IntOp.andi x v reducesTo_S2x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_arg14 main_arg15 main_v13 main_v16
-- ==== Kernel.lean ====
abbrev S50000x2 : Shape := ⟨2, ![50000, 2]⟩
abbrev S2x800000 : Shape := ⟨2, ![2, 800000]⟩
abbrev S50000 : Shape := ⟨1, ![50000]⟩
abbrev S5000 : Shape := ⟨1, ![5000]⟩
abbrev S2x128 : Shape := ⟨2, ![2, 128]⟩
abbrev S128 : Shape := ⟨1, ![128]⟩
abbrev S128x128 : Shape := ⟨2, ![128, 128]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x2 : Shape := ⟨2, ![800000, 2]⟩
abbrev S1x128 : Shape := ⟨2, ![1, 128]⟩
abbrev S50000x128 : Shape := ⟨2, ![50000, 128]⟩
abbrev S10000x2 : Shape := ⟨2, ![10000, 2]⟩
abbrev S10000x128 : Shape := ⟨2, ![10000, 128]⟩
abbrev S1x128x128 : Shape := ⟨3, ![1, 128, 128]⟩
abbrev S800000x128 : Shape := ⟨2, ![800000, 128]⟩
abbrev S5000x128 : Shape := ⟨2, ![5000, 128]⟩
abbrev S50000x1 : Shape := ⟨2, ![50000, 1]⟩
abbrev S64x128 : Shape := ⟨2, ![64, 128]⟩
abbrev S5000x1 : Shape := ⟨2, ![5000, 1]⟩
abbrev S64 : Shape := ⟨1, ![64]⟩
abbrev S64x1 : Shape := ⟨2, ![64, 1]⟩

abbrev nBuf : Space → Nat
  | .hbm => 119
  | .vmem => 46
  | .smem => 0
  | _ => 0

abbrev bufTy : (tb : Table) → Fin (tcTables nBuf tb) → BufTy
  | .hbm, ⟨0, _⟩ => ⟨S50000x2, .f32⟩
  | .hbm, ⟨1, _⟩ => ⟨S2x800000, .i32⟩
  | .hbm, ⟨2, _⟩ => ⟨S50000, .i32⟩
  | .hbm, ⟨3, _⟩ => ⟨S5000, .i32⟩
  | .hbm, ⟨4, _⟩ => ⟨S2x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S3x128x128, .f32⟩
  | .hbm, ⟨9, _⟩ => ⟨S3x128, .f32⟩
  | .hbm, ⟨10, _⟩ => ⟨S3x128x128, .f32⟩
  | .hbm, ⟨11, _⟩ => ⟨S3x128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x2, .f32⟩
  | .hbm, ⟨29, _⟩ => ⟨S_, .f32⟩
  | .hbm, ⟨30, _⟩ => ⟨S50000x2, .f32⟩
  | .hbm, ⟨31, _⟩ => ⟨S800000x1, .i32⟩
  | .hbm, ⟨32, _⟩ => ⟨S50000x2, .f32⟩
  | .hbm, ⟨33, _⟩ => ⟨S1x128, .f32⟩
  | .hbm, ⟨34, _⟩ => ⟨S1x128, .f32⟩
  | .hbm, ⟨35, _⟩ => ⟨S50000x128, .f32⟩
  | .hbm, ⟨36, _⟩ => ⟨S1x128x128, .f32⟩
  | .hbm, ⟨37, _⟩ => ⟨S128x128, .f32⟩
  | .hbm, ⟨38, _⟩ => ⟨S1x128, .f32⟩
  | .hbm, ⟨39, _⟩ => ⟨S128, .f32⟩
  | .hbm, ⟨40, _⟩ => ⟨S1x128x128, .f32⟩
  | .hbm, ⟨41, _⟩ => ⟨S128x128, .f32⟩
  | .hbm, ⟨42, _⟩ => ⟨S1x128, .f32⟩
  | .hbm, ⟨43, _⟩ => ⟨S128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S1x128, .f32⟩
  | .hbm, ⟨58, _⟩ => ⟨S1x128, .f32⟩
  | .hbm, ⟨59, _⟩ => ⟨S50000x128, .f32⟩
  | .hbm, ⟨60, _⟩ => ⟨S1x128x128, .f32⟩
  | .hbm, ⟨61, _⟩ => ⟨S128x128, .f32⟩
  | .hbm, ⟨62, _⟩ => ⟨S1x128, .f32⟩
  | .hbm, ⟨63, _⟩ => ⟨S128, .f32⟩
  | .hbm, ⟨64, _⟩ => ⟨S1x128x128, .f32⟩
  | .hbm, ⟨65, _⟩ => ⟨S128x128, .f32⟩
  | .hbm, ⟨66, _⟩ => ⟨S1x128, .f32⟩
  | .hbm, ⟨67, _⟩ => ⟨S128, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x128, .f32⟩
  | .hbm, ⟨77, _⟩ => ⟨S_, .f32⟩
  | .hbm, ⟨78, _⟩ => ⟨S50000x128, .f32⟩
  | .hbm, ⟨79, _⟩ => ⟨S800000x1, .i32⟩
  | .hbm, ⟨80, _⟩ => ⟨S50000x128, .f32⟩
  | .hbm, ⟨81, _⟩ => ⟨S1x128, .f32⟩
  | .hbm, ⟨82, _⟩ => ⟨S1x128, .f32⟩
  | .hbm, ⟨83, _⟩ => ⟨S50000x128, .f32⟩
  | .hbm, ⟨84, _⟩ => ⟨S1x128x128, .f32⟩
  | .hbm, ⟨85, _⟩ => ⟨S128x128, .f32⟩
  | .hbm, ⟨86, _⟩ => ⟨S1x128, .f32⟩
  | .hbm, ⟨87, _⟩ => ⟨S128, .f32⟩
  | .hbm, ⟨88, _⟩ => ⟨S1x128x128, .f32⟩
  | .hbm, ⟨89, _⟩ => ⟨S128x128, .f32⟩
  | .hbm, ⟨90, _⟩ => ⟨S1x128, .f32⟩
  | .hbm, ⟨91, _⟩ => ⟨S128, .f32⟩
  | .hbm, ⟨92, _⟩ => ⟨S_, .i32⟩
  | .hbm, ⟨93, _⟩ => ⟨S800000, .i32⟩
  | .hbm, ⟨94, _⟩ => ⟨S800000, .i1⟩
  | .hbm, ⟨95, _⟩ => ⟨S_, .i32⟩
  | .hbm, ⟨96, _⟩ => ⟨S800000, .i32⟩
  | .hbm, ⟨97, _⟩ => ⟨S800000, .i32⟩
  | .hbm, ⟨98, _⟩ => ⟨S800000, .i32⟩
  | .hbm, ⟨99, _⟩ => ⟨S800000x1, .i32⟩
  | .hbm, ⟨100, _⟩ => ⟨S800000x128, .f32⟩
  | .hbm, ⟨101, _⟩ => ⟨S_, .f32⟩
  | .hbm, ⟨102, _⟩ => ⟨S50000x128, .f32⟩
  | .hbm, ⟨103, _⟩ => ⟨S800000x1, .i32⟩
  | .hbm, ⟨104, _⟩ => ⟨S50000x128, .f32⟩
  | .hbm, ⟨105, _⟩ => ⟨S1x128, .f32⟩
  | .hbm, ⟨106, _⟩ => ⟨S1x128, .f32⟩
  | .hbm, ⟨107, _⟩ => ⟨S50000x128, .f32⟩
  | .hbm, ⟨108, _⟩ => ⟨S_, .f32⟩
  | .hbm, ⟨109, _⟩ => ⟨S5000x128, .f32⟩
  | .hbm, ⟨110, _⟩ => ⟨S50000x1, .i32⟩
  | .hbm, ⟨111, _⟩ => ⟨S5000x128, .f32⟩
  | .hbm, ⟨112, _⟩ => ⟨S_, .f32⟩
  | .hbm, ⟨113, _⟩ => ⟨S64x128, .f32⟩
  | .hbm, ⟨114, _⟩ => ⟨S5000x1, .i32⟩
  | .hbm, ⟨115, _⟩ => ⟨S64x128, .f32⟩
  | .hbm, ⟨116, _⟩ => ⟨S1x128, .f32⟩
  | .hbm, ⟨117, _⟩ => ⟨S1x128, .f32⟩
  | .hbm, ⟨118, _⟩ => ⟨S64x128, .f32⟩
  | .local _ .vmem, ⟨0, _⟩ => ⟨S10000x2, .f32⟩
  | .local _ .vmem, ⟨1, _⟩ => ⟨S10000x2, .f32⟩
  | .local _ .vmem, ⟨2, _⟩ => ⟨S10000x2, .f32⟩
  | .local _ .vmem, ⟨3, _⟩ => ⟨S10000x2, .f32⟩
  | .local _ .vmem, ⟨4, _⟩ => ⟨S2x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S10000x128, .f32⟩
  | .local _ .vmem, ⟨29, _⟩ => ⟨S10000x128, .f32⟩
  | .local _ .vmem, ⟨30, _⟩ => ⟨S10000x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S10000x128, .f32⟩
  | .local _ .vmem, ⟨39, _⟩ => ⟨S10000x128, .f32⟩
  | .local _ .vmem, ⟨40, _⟩ => ⟨S64x128, .f32⟩
  | .local _ .vmem, ⟨41, _⟩ => ⟨S128x128, .f32⟩
  | .local _ .vmem, ⟨42, _⟩ => ⟨S1x128, .f32⟩
  | .local _ .vmem, ⟨43, _⟩ => ⟨S128x128, .f32⟩
  | .local _ .vmem, ⟨44, _⟩ => ⟨S1x128, .f32⟩
  | .local _ .vmem, ⟨45, _⟩ => ⟨S64x128, .f32⟩
  | _, _ => ⟨S50000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_1 : Ref sig .tc := ⟨.hbm, 44, rfl⟩
abbrev main_v25 : Ref sig .tc := ⟨.hbm, 45, rfl⟩
abbrev main_v26 : Ref sig .tc := ⟨.hbm, 46, rfl⟩
abbrev main_c_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_4 : Ref sig .tc := ⟨.hbm, 68, rfl⟩
abbrev main_v46 : Ref sig .tc := ⟨.hbm, 69, rfl⟩
abbrev main_v47 : Ref sig .tc := ⟨.hbm, 70, rfl⟩
abbrev main_c_5 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_6 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_7 : Ref sig .tc := ⟨.hbm, 92, rfl⟩
abbrev main_v67 : Ref sig .tc := ⟨.hbm, 93, rfl⟩
abbrev main_v68 : Ref sig .tc := ⟨.hbm, 94, rfl⟩
abbrev main_c_8 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_9 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_10 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_11 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg1_0 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem1_0 : DmaSem sig := 41
abbrev cc4_sem2_0 : DmaSem sig := 42
abbrev cc4_sem3_0 : DmaSem sig := 43
abbrev cc4_sem4_0 : DmaSem sig := 44
abbrev cc4_sem5_0 : DmaSem sig := 45

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := .none

abbrev stage4_0 : Fin 1 → Memref sig .tc .vmem S64x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .vmem S64x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x2 : S_.BroadcastsInDim S50000x2 (![] : Fin 0 → Fin S50000x2.rank)
  shapeCasts_S128_S1x128 : S128.ShapeCasts S1x128
  inb_S10000x2_S10000x2_0_0 : ∀ a, (![0, 0] : Fin 2 → Nat) a + S10000x2.size a ≤ S10000x2.size a
  h_S10000x2 : 0 < S10000x2.numel
  shapeCasts_S10000x2_S10000x2 : S10000x2.ShapeCasts S10000x2
  inb_S2x128_S2x128_0_0 : ∀ a, (![0, 0] : Fin 2 → Nat) a + S2x128.size a ≤ S2x128.size a
  h_S2x128 : 0 < S2x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  inb_S10000x128_S10000x128_0_0 : ∀ a, (![0, 0] : Fin 2 → Nat) a + S10000x128.size a ≤ S10000x128.size a
  h_S10000x128 : 0 < S10000x128.numel
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S50000x128 : S_.BroadcastsInDim S50000x128 (![] : Fin 0 → Fin S50000x128.rank)
  shapeCasts_S10000x128_S10000x128 : S10000x128.ShapeCasts S10000x128
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S5000x128 : S_.BroadcastsInDim S5000x128 (![] : Fin 0 → Fin S5000x128.rank)
  bcast_S50000_S50000x1_0 : S50000.BroadcastsInDim S50000x1 (![0] : Fin 1 → Fin S50000x1.rank)
  bcast_S_S64x128 : S_.BroadcastsInDim S64x128 (![] : Fin 0 → Fin S64x128.rank)
  bcast_S5000_S5000x1_0 : S5000.BroadcastsInDim S5000x1 (![0] : Fin 1 → Fin S5000x1.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S64x128 : S1x128.Broadcasts S64x128
  reduces_S64x128_S64 : S64x128.Reduces [1] S64
  shapeCasts_S64_S64x1 : S64.ShapeCasts S64x1
  broadcasts_S64x1_S64x128 : S64x1.Broadcasts S64x128
  gather_S50000x2_S800000x1_S800000x2_1_0_n_n_0_1_12_wf : GatherDims.WF S50000x2 S800000x1 S800000x2 [1] [0] [] [0] [] 1 ![1, 2]
  scatter_S50000x2_S800000x1_S800000x2_1_0_0_1_wf : ScatterDims.WF S50000x2 S800000x1 S800000x2 [1] [0] [0] 1
  dot_S10000x2_S2x128_S10000x128_1_0_0_1_n_n_wf : DotDims.WF S10000x2 S2x128 S10000x128 [1] [0] [0] [1] [] []
  dot_S10000x128_S128x128_S10000x128_1_0_0_1_n_n_wf : DotDims.WF S10000x128 S128x128 S10000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S5000x128_S50000x1_S50000x128_1_0_0_1_wf : ScatterDims.WF S5000x128 S50000x1 S50000x128 [1] [0] [0] 1
  scatter_S64x128_S5000x1_S5000x128_1_0_0_1_wf : ScatterDims.WF S64x128 S5000x1 S5000x128 [1] [0] [0] 1
  dot_S64x128_S128x128_S64x128_1_0_0_1_n_n_wf : DotDims.WF S64x128 S128x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x2.size a ≤ S50000x2.size a
  hwx0_0 : ∀ i : grid0.Coords, EltTy.bits .f32 = 32 ∨ (Rect.block (s := S50000x2) S10000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x2.size a ≤ S50000x2.size a
  hwx0_1 : ∀ i : grid0.Coords, EltTy.bits .f32 = 32 ∨ (Rect.block (s := S50000x2) S10000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x128.size a ≤ S2x128.size a
  hwx0_2 : ∀ i : grid0.Coords, EltTy.bits .f32 = 32 ∨ (Rect.block (s := S2x128) S2x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S50000x128.size a
  hwx0_6 : ∀ i : grid0.Coords, EltTy.bits .f32 = 32 ∨ (Rect.block (s := S50000x128) S10000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S50000x128.size a
  hwx1_1 : ∀ i : grid1.Coords, EltTy.bits .f32 = 32 ∨ (Rect.block (s := S50000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S50000x128.size a
  hwx1_6 : ∀ i : grid1.Coords, EltTy.bits .f32 = 32 ∨ (Rect.block (s := S50000x128) S10000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S50000x128.size a
  hwx2_1 : ∀ i : grid2.Coords, EltTy.bits .f32 = 32 ∨ (Rect.block (s := S50000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x128.size a ≤ S50000x128.size a
  hwx2_6 : ∀ i : grid2.Coords, EltTy.bits .f32 = 32 ∨ (Rect.block (s := S50000x128) S10000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S50000x128.size a
  hwx3_1 : ∀ i : grid3.Coords, EltTy.bits .f32 = 32 ∨ (Rect.block (s := S50000x128) S10000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x128.size a ≤ S50000x128.size a
  hwx3_6 : ∀ i : grid3.Coords, EltTy.bits .f32 = 32 ∨ (Rect.block (s := S50000x128) S10000x128.size (cc3_transform_6 i) (hinb3_6 i)).WholeWords (EltTy.packing .f32)
  hstage4_0 : ∀ j, (stage4_0 j).IsWhole
  hstage4_1 : ∀ j, (stage4_1 j).IsWhole
  hstage4_2 : ∀ j, (stage4_2 j).IsWhole
  hstage4_3 : ∀ j, (stage4_3 j).IsWhole
  hstage4_4 : ∀ j, (stage4_4 j).IsWhole
  hstage4_5 : ∀ j, (stage4_5 j).IsWhole

variable [Facts₀]

def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def scatter_S50000x2_S800000x1_S800000x2_1_0_0_1 : ScatterDims S50000x2 S800000x1 S800000x2 where
  updateWindowDims := [1]
  insertedWindowDims := [0]
  scatterDimsToOperandDims := [0]
  indexVectorDim := 1
  wf := scatter_S50000x2_S800000x1_S800000x2_1_0_0_1_wf
def dot_S10000x2_S2x128_S10000x128_1_0_0_1_n_n : DotDims S10000x2 S2x128 S10000x128 where
  lhsContracting := [1]
  rhsContracting := [0]
  lhsNonContracting := [0]
  rhsNonContracting := [1]
  lhsBatch := []
  rhsBatch := []
  wf := dot_S10000x2_S2x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S5000x128_S50000x1_S50000x128_1_0_0_1 : ScatterDims S5000x128 S50000x1 S50000x128 where
  updateWindowDims := [1]
  insertedWindowDims := [0]
  scatterDimsToOperandDims := [0]
  indexVectorDim := 1
  wf := scatter_S5000x128_S50000x1_S50000x128_1_0_0_1_wf
def scatter_S64x128_S5000x1_S5000x128_1_0_0_1 : ScatterDims S64x128 S5000x1 S5000x128 where
  updateWindowDims := [1]
  insertedWindowDims := [0]
  scatterDimsToOperandDims := [0]
  indexVectorDim := 1
  wf := scatter_S64x128_S5000x1_S5000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_arg0) S10000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S2x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v37) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S10000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v58) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v60) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v78) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v79) S10000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.whole (Memref.whole main_v85) false false (stage4_0 0) (sem4_0 0) (Memref.isWhole_whole _) (hstage4_0 0)

abbrev win4_1 : Pipeline.Window sig grid4 :=
  Pipeline.Window.whole (Memref.whole main_arg12) false false (stage4_1 0) (sem4_1 0) (Memref.isWhole_whole _) (hstage4_1 0)

abbrev win4_2 : Pipeline.Window sig grid4 :=
  Pipeline.Window.whole (Memref.whole main_v86) false false (stage4_2 0) (sem4_2 0) (Memref.isWhole_whole _) (hstage4_2 0)

abbrev win4_3 : Pipeline.Window sig grid4 :=
  Pipeline.Window.whole (Memref.whole main_arg14) false false (stage4_3 0) (sem4_3 0) (Memref.isWhole_whole _) (hstage4_3 0)

abbrev win4_4 : Pipeline.Window sig grid4 :=
  Pipeline.Window.whole (Memref.whole main_v87) false false (stage4_4 0) (sem4_4 0) (Memref.isWhole_whole _) (hstage4_4 0)

abbrev win4_5 : Pipeline.Window sig grid4 :=
  Pipeline.Window.whole (Memref.whole main_v88) true false (stage4_5 0) (sem4_5 0) (Memref.isWhole_whole _) (hstage4_5 0)

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x2 : Shape := ⟨2, ![50000, 2]⟩
abbrev S2x800000 : Shape := ⟨2, ![2, 800000]⟩
abbrev S50000 : Shape := ⟨1, ![50000]⟩
abbrev S5000 : Shape := ⟨1, ![5000]⟩
abbrev S2x128 : Shape := ⟨2, ![2, 128]⟩
abbrev S128 : Shape := ⟨1, ![128]⟩
abbrev S128x128 : Shape := ⟨2, ![128, 128]⟩
abbrev S3x128x128 : Shape := ⟨3, ![3, 128, 128]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x2 : Shape := ⟨2, ![800000, 2]⟩
abbrev S50000x128 : Shape := ⟨2, ![50000, 128]⟩
abbrev S1x128 : Shape := ⟨2, ![1, 128]⟩
abbrev S1x128x128 : Shape := ⟨3, ![1, 128, 128]⟩
abbrev S800000x128 : Shape := ⟨2, ![800000, 128]⟩
abbrev S5000x128 : Shape := ⟨2, ![5000, 128]⟩
abbrev S50000x1 : Shape := ⟨2, ![50000, 1]⟩
abbrev S64x128 : Shape := ⟨2, ![64, 128]⟩
abbrev S5000x1 : Shape := ⟨2, ![5000, 1]⟩
abbrev S64 : Shape := ⟨1, ![64]⟩
abbrev S64x1 : Shape := ⟨2, ![64, 1]⟩

abbrev nBuf : Space → Nat
  | .hbm => 190
  | .vmem => 0
  | .smem => 0
  | _ => 0

abbrev hbmTy0_0 (i : Nat) : BufTy := match i % 128 with
  | 0 => ⟨S50000x2, .f32⟩
  | 1 => ⟨S2x800000, .i32⟩
  | 2 => ⟨S50000, .i32⟩
  | 3 => ⟨S5000, .i32⟩
  | 4 => ⟨S2x128, .f32⟩
  | 5 => ⟨S128, .f32⟩
  | 6 => ⟨S128x128, .f32⟩
  | 7 => ⟨S128, .f32⟩
  | 8 => ⟨S3x128x128, .f32⟩
  | 9 => ⟨S3x128, .f32⟩
  | 10 => ⟨S3x128x128, .f32⟩
  | 11 => ⟨S3x128, .f32⟩
  | 12 => ⟨S128x128, .f32⟩
  | 13 => ⟨S128, .f32⟩
  | 14 => ⟨S128x128, .f32⟩
  | 15 => ⟨S128, .f32⟩
  | 16 => ⟨S1x800000, .i32⟩
  | 17 => ⟨S800000, .i32⟩
  | 18 => ⟨S1x800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x2, .f32⟩
  | 29 => ⟨S_, .f32⟩
  | 30 => ⟨S50000x2, .f32⟩
  | 31 => ⟨S800000x1, .i32⟩
  | 32 => ⟨S50000x2, .f32⟩
  | 33 => ⟨S50000x2, .f32⟩
  | 34 => ⟨S50000x128, .f32⟩
  | 35 => ⟨S1x128, .f32⟩
  | 36 => ⟨S50000x128, .f32⟩
  | 37 => ⟨S50000x128, .f32⟩
  | 38 => ⟨S_, .f32⟩
  | 39 => ⟨S50000x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S_, .f32⟩
  | 46 => ⟨S50000x128, .f32⟩
  | 47 => ⟨S50000x128, .f32⟩
  | 48 => ⟨S1x128x128, .f32⟩
  | 49 => ⟨S128x128, .f32⟩
  | 50 => ⟨S1x128, .f32⟩
  | 51 => ⟨S128, .f32⟩
  | 52 => ⟨S1x128x128, .f32⟩
  | 53 => ⟨S128x128, .f32⟩
  | 54 => ⟨S1x128, .f32⟩
  | 55 => ⟨S128, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S1x128x128, .f32⟩
  | 85 => ⟨S128x128, .f32⟩
  | 86 => ⟨S1x128, .f32⟩
  | 87 => ⟨S128, .f32⟩
  | 88 => ⟨S1x128x128, .f32⟩
  | 89 => ⟨S128x128, .f32⟩
  | 90 => ⟨S1x128, .f32⟩
  | 91 => ⟨S128, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x128, .f32⟩
  | 101 => ⟨S_, .f32⟩
  | 102 => ⟨S50000x128, .f32⟩
  | 103 => ⟨S800000x1, .i32⟩
  | 104 => ⟨S50000x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S1x128x128, .f32⟩
  | 121 => ⟨S128x128, .f32⟩
  | 122 => ⟨S1x128, .f32⟩
  | 123 => ⟨S128, .f32⟩
  | 124 => ⟨S1x128x128, .f32⟩
  | 125 => ⟨S128x128, .f32⟩
  | 126 => ⟨S1x128, .f32⟩
  | 127 => ⟨S128, .f32⟩
  | _ => ⟨S50000x2, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x128, .f32⟩
  | 9 => ⟨S_, .f32⟩
  | 10 => ⟨S50000x128, .f32⟩
  | 11 => ⟨S800000x1, .i32⟩
  | 12 => ⟨S50000x128, .f32⟩
  | 13 => ⟨S50000x128, .f32⟩
  | 14 => ⟨S50000x128, .f32⟩
  | 15 => ⟨S1x128, .f32⟩
  | 16 => ⟨S50000x128, .f32⟩
  | 17 => ⟨S50000x128, .f32⟩
  | 18 => ⟨S_, .f32⟩
  | 19 => ⟨S50000x128, .f32⟩
  | 20 => ⟨S50000x128, .f32⟩
  | 21 => ⟨S50000x128, .f32⟩
  | 22 => ⟨S1x128, .f32⟩
  | 23 => ⟨S50000x128, .f32⟩
  | 24 => ⟨S50000x128, .f32⟩
  | 25 => ⟨S_, .f32⟩
  | 26 => ⟨S50000x128, .f32⟩
  | 27 => ⟨S50000x128, .f32⟩
  | 28 => ⟨S_, .f32⟩
  | 29 => ⟨S5000x128, .f32⟩
  | 30 => ⟨S50000x1, .i32⟩
  | 31 => ⟨S5000x128, .f32⟩
  | 32 => ⟨S_, .f32⟩
  | 33 => ⟨S64x128, .f32⟩
  | 34 => ⟨S5000x1, .i32⟩
  | 35 => ⟨S64x128, .f32⟩
  | 36 => ⟨S64x128, .f32⟩
  | 37 => ⟨S1x128, .f32⟩
  | 38 => ⟨S64x128, .f32⟩
  | 39 => ⟨S64x128, .f32⟩
  | 40 => ⟨S_, .f32⟩
  | 41 => ⟨S64x128, .f32⟩
  | 42 => ⟨S64x128, .f32⟩
  | 43 => ⟨S64x128, .f32⟩
  | 44 => ⟨S1x128, .f32⟩
  | 45 => ⟨S64x128, .f32⟩
  | 46 => ⟨S64x128, .f32⟩
  | 47 => ⟨S_, .f32⟩
  | 48 => ⟨S64, .f32⟩
  | 49 => ⟨S_, .f32⟩
  | 50 => ⟨S64, .f32⟩
  | 51 => ⟨S64, .f32⟩
  | 52 => ⟨S64x1, .f32⟩
  | 53 => ⟨S64x128, .f32⟩
  | 54 => ⟨S64x128, .f32⟩
  | 55 => ⟨S64x128, .f32⟩
  | 56 => ⟨S_, .f32⟩
  | 57 => ⟨S64, .f32⟩
  | 58 => ⟨S64x1, .f32⟩
  | 59 => ⟨S64x1, .f32⟩
  | 60 => ⟨S64x128, .f32⟩
  | 61 => ⟨S64x128, .f32⟩
  | _ => ⟨S50000x2, .f32⟩

abbrev hbmTy (i : Nat) : BufTy := match i / 128 with
  | 0 => hbmTy0_0 i
  | 1 => hbmTy0_1 i
  | _ => ⟨S50000x2, .f32⟩

abbrev bufTy : (tb : Table) → Fin (tcTables nBuf tb) → BufTy
  | .hbm, ⟨i, _⟩ => hbmTy i
  | _, _ => ⟨S50000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call0_cst : Ref sig .tc := ⟨.hbm, 38, rfl⟩
abbrev main_call0_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_cst : Ref sig .tc := ⟨.hbm, 45, rfl⟩
abbrev main_call1_v0 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_1 : Ref sig .tc := ⟨.hbm, 56, rfl⟩
abbrev main_v33 : Ref sig .tc := ⟨.hbm, 57, rfl⟩
abbrev main_v34 : Ref sig .tc := ⟨.hbm, 58, rfl⟩
abbrev main_c_2 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_3 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call2_cst : Ref sig .tc := ⟨.hbm, 74, rfl⟩
abbrev main_call2_v0 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call3_cst : Ref sig .tc := ⟨.hbm, 81, rfl⟩
abbrev main_call3_v0 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_4 : Ref sig .tc := ⟨.hbm, 92, rfl⟩
abbrev main_v62 : Ref sig .tc := ⟨.hbm, 93, rfl⟩
abbrev main_v63 : Ref sig .tc := ⟨.hbm, 94, rfl⟩
abbrev main_c_5 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_6 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_call4_cst : Ref sig .tc := ⟨.hbm, 110, rfl⟩
abbrev main_call4_v0 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_call5_cst : Ref sig .tc := ⟨.hbm, 117, rfl⟩
abbrev main_call5_v0 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_c_7 : Ref sig .tc := ⟨.hbm, 128, rfl⟩
abbrev main_v91 : Ref sig .tc := ⟨.hbm, 129, rfl⟩
abbrev main_v92 : Ref sig .tc := ⟨.hbm, 130, rfl⟩
abbrev main_c_8 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_9 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_call6_cst : Ref sig .tc := ⟨.hbm, 146, rfl⟩
abbrev main_call6_v0 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_call7_cst : Ref sig .tc := ⟨.hbm, 153, rfl⟩
abbrev main_call7_v0 : Ref sig .tc := ⟨.hbm, 154, rfl⟩
abbrev main_v111 : Ref sig .tc := ⟨.hbm, 155, rfl⟩
abbrev main_cst_10 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_11 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_call8_cst : Ref sig .tc := ⟨.hbm, 168, rfl⟩
abbrev main_call8_v0 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_call9_cst : Ref sig .tc := ⟨.hbm, 175, rfl⟩
abbrev main_call9_v0 : Ref sig .tc := ⟨.hbm, 176, rfl⟩
abbrev main_call9_cst_0 : Ref sig .tc := ⟨.hbm, 177, rfl⟩
abbrev main_call9_v1 : Ref sig .tc := ⟨.hbm, 178, rfl⟩
abbrev main_call9_v2 : Ref sig .tc := ⟨.hbm, 179, rfl⟩
abbrev main_call9_v3 : Ref sig .tc := ⟨.hbm, 180, rfl⟩
abbrev main_call9_v4 : Ref sig .tc := ⟨.hbm, 181, rfl⟩
abbrev main_call9_v5 : Ref sig .tc := ⟨.hbm, 182, rfl⟩
abbrev main_call9_v6 : Ref sig .tc := ⟨.hbm, 183, rfl⟩
abbrev main_call9_cst_1 : Ref sig .tc := ⟨.hbm, 184, rfl⟩
abbrev main_call9_v7 : Ref sig .tc := ⟨.hbm, 185, rfl⟩
abbrev main_call9_v8 : Ref sig .tc := ⟨.hbm, 186, rfl⟩
abbrev main_call9_v9 : Ref sig .tc := ⟨.hbm, 187, rfl⟩
abbrev main_call9_v10 : Ref sig .tc := ⟨.hbm, 188, rfl⟩
abbrev main_v127 : Ref sig .tc := ⟨.hbm, 189, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x2 : S_.BroadcastsInDim S50000x2 (![] : Fin 0 → Fin S50000x2.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S5000x128 : S_.BroadcastsInDim S5000x128 (![] : Fin 0 → Fin S5000x128.rank)
  bcast_S50000_S50000x1_0 : S50000.BroadcastsInDim S50000x1 (![0] : Fin 1 → Fin S50000x1.rank)
  bcast_S_S64x128 : S_.BroadcastsInDim S64x128 (![] : Fin 0 → Fin S64x128.rank)
  bcast_S5000_S5000x1_0 : S5000.BroadcastsInDim S5000x1 (![0] : Fin 1 → Fin S5000x1.rank)
  bcast_S1x128_S64x128_0_1 : S1x128.BroadcastsInDim S64x128 (![0, 1] : Fin 2 → Fin S64x128.rank)
  reducesTo_S64x128_S64_d1 : S64x128.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  gather_S50000x2_S800000x1_S800000x2_1_0_n_n_0_1_12_wf : GatherDims.WF S50000x2 S800000x1 S800000x2 [1] [0] [] [0] [] 1 ![1, 2]
  scatter_S50000x2_S800000x1_S800000x2_1_0_0_1_wf : ScatterDims.WF S50000x2 S800000x1 S800000x2 [1] [0] [0] 1
  dot_S50000x2_S2x128_S50000x128_1_0_0_1_n_n_wf : DotDims.WF S50000x2 S2x128 S50000x128 [1] [0] [0] [1] [] []
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S5000x128_S50000x1_S50000x128_1_0_0_1_wf : ScatterDims.WF S5000x128 S50000x1 S50000x128 [1] [0] [0] 1
  scatter_S64x128_S5000x1_S5000x128_1_0_0_1_wf : ScatterDims.WF S64x128 S5000x1 S5000x128 [1] [0] [0] 1
  dot_S64x128_S128x128_S64x128_1_0_0_1_n_n_wf : DotDims.WF S64x128 S128x128 S64x128 [1] [0] [0] [1] [] []

variable [Facts₀]

def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def scatter_S50000x2_S800000x1_S800000x2_1_0_0_1 : ScatterDims S50000x2 S800000x1 S800000x2 where
  updateWindowDims := [1]
  insertedWindowDims := [0]
  scatterDimsToOperandDims := [0]
  indexVectorDim := 1
  wf := scatter_S50000x2_S800000x1_S800000x2_1_0_0_1_wf
def dot_S50000x2_S2x128_S50000x128_1_0_0_1_n_n : DotDims S50000x2 S2x128 S50000x128 where
  lhsContracting := [1]
  rhsContracting := [0]
  lhsNonContracting := [0]
  rhsNonContracting := [1]
  lhsBatch := []
  rhsBatch := []
  wf := dot_S50000x2_S2x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S5000x128_S50000x1_S50000x128_1_0_0_1 : ScatterDims S5000x128 S50000x1 S50000x128 where
  updateWindowDims := [1]
  insertedWindowDims := [0]
  scatterDimsToOperandDims := [0]
  indexVectorDim := 1
  wf := scatter_S5000x128_S50000x1_S50000x128_1_0_0_1_wf
def scatter_S64x128_S5000x1_S5000x128_1_0_0_1 : ScatterDims S64x128 S5000x1 S5000x128 where
  updateWindowDims := [1]
  insertedWindowDims := [0]
  scatterDimsToOperandDims := [0]
  indexVectorDim := 1
  wf := scatter_S64x128_S5000x1_S5000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

class Facts : Prop extends Facts₀ where

variable [Facts]
-- ==== Proof.RunNamed.lean ====
/-
  The kernel program's run with its result named.  The program is five kernel regions among stretches of host
  operations; its frame certificate states that every weakly fair execution terminates, nothing faulting, with the
  arguments as launched.  The same run leaves every unscoped buffer at the last boundary's contents `W10`; read at
  the result buffer as well, that is the statement below: the result ends at `W10` of its buffer.
-/
import proofs.«151027_j4887672783293_2_alg».proof.Proof.Gen.KernelIdeal.Frame

set_option maxRecDepth 16384

noncomputable section

namespace Cert.KernelIdeal.Named

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting; the result buffer ends at the last
    boundary's contents and the arguments as launched. -/
theorem run_named : θ_run defs (onTc (τ := τ) (main (F := F))) ⟨m, fun _ => 0, ρ⟩ (fun r => ∀ c : Dev nD,
      r.2.mem ((c.tc : Thread nD τ).loc main_v88) = W10 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v88 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c)⟩)

end Cert.KernelIdeal.Named

end
-- ==== Proof.MlpRow.lean ====
/-
  One row of a two-layer perceptron with rectifiers, over the extended reals: from a row `u` of K inputs, weights
  `Wa` (K×N) and `Wb` (N×N), biases `ba`, `bb` and the threshold `z`,
      out q = max (Σ_k  max (Σ_j u j · Wa j k + ba k) z · Wb k q  + bb q) z.
  Both programs compute this for every row of the node features; this file only names it.
-/
import Idealize.ShloMosaic.PureOps.Ideal

noncomputable section

namespace Cert.Bridge

/-- The threshold of the rectifier: the float zero. -/
abbrev zeroF : EReal := Idealize.ShloMosaic.Ideal.ofBits .f32 0x00000000#32

/-- Entry `q` of the perceptron's output row. -/
def mlpRow {K N : ℕ} (u : Fin K → EReal) (Wa : Fin K → Fin N → EReal) (ba : Fin N → EReal)
    (Wb : Fin N → Fin N → EReal) (bb : Fin N → EReal) (z : EReal) (q : Fin N) : EReal :=
  max ((∑ k : Fin N, max ((∑ j : Fin K, u j * Wa j k) + ba k) z * Wb k q) + bb q) z

end Cert.Bridge

end
-- ==== Proof.LibHostDot.lean ====
/-
  A plain matrix product on the host, read at an index.  `jnp`'s `A @ B` of an m×k by a k×n matrix lowers to a
  `dot_general` contracting the left operand's axis 1 with the right operand's axis 0; over the extended reals its entry
  (r, c) is the sum over the contracted coordinate i of `A (r, i) · B (i, c)`, whatever the precision and schedule.
  The extents are arbitrary naturals; nothing here depends on a program.  The second form takes the record by name
  together with the equation that spells its fields, for a record a program declares as a definition.
-/
import Idealize.ShloMosaic.Lib.Pipeline.Value
import Idealize.ShloMosaic.Lib.ValueIdx
import Idealize.ShloMosaic.PureOps.Ideal.Laws

noncomputable section

open scoped BigOperators

namespace Cert.LibHostDot

open Idealize.ShloMosaic Idealize.ShloMosaic.ValueIdx

/-- The host's product of an m×k by a k×n matrix, read at (r, c): the sum over the contracted coordinate. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    Host.dotGeneral (⟨[1], [0], [0], [1], [], [], w⟩ : DotDims _ _ _) prec A B (ix2 r c)
      = ∑ i : Fin k, A (ix2 r i) * B (ix2 i c) := by
  simp only [Host.dotGeneral]
  rw [Ideal.dotGeneral_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

/-- The same for a record given by name, with the equation that spells it. -/
theorem dotGeneral_plain_apply' {m k n : ℕ} {φ₁ φ₂ : FTy}
    (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] [])
    (hd : d = ⟨[1], [0], [0], [1], [], [], w⟩)
    (prec : Option ContractPrecision) (A : FVec Ideal ⟨2, ![m, k]⟩ φ₁) (B : FVec Ideal ⟨2, ![k, n]⟩ φ₂)
    (r : Fin m) (c : Fin n) :
    Host.dotGeneral d prec A B (ix2 r c) = ∑ i : Fin k, A (ix2 r i) * B (ix2 i c) := by
  subst hd
  exact dotGeneral_plain_apply w prec A B r c

end Cert.LibHostDot

end
-- ==== Proof.HostMlp.lean ====
/-
  The reference's perceptron on whole arrays, read at an entry.  For node features `h` and aggregated neighbour
  features `agg` (50000 rows), the host computes  relu (relu ((h + agg) · Wa + ba) · Wb + bb)  with the biases
  broadcast down the rows; entry (r, q) of the result is the perceptron row `mlpRow` of row r of h + agg.
-/
import proofs.«151027_j4887672783293_2_alg».proof.ReferenceIdeal
import proofs.«151027_j4887672783293_2_alg».proof.Proof.Gen.ReferenceIdeal
import proofs.«151027_j4887672783293_2_alg».proof.Proof.MlpRow
import proofs.«151027_j4887672783293_2_alg».proof.Proof.LibHostDot
import Idealize.ShloMosaic.Lib.Pipeline.Value
import Idealize.ShloMosaic.Lib.ValueIdx

noncomputable section

namespace Cert.Bridge

open Idealize.ShloMosaic Idealize.ShloMosaic.ValueIdx Cert.ReferenceIdeal Cert.ReferenceIdeal.Gen

/-- The host's perceptron for 128 input features. -/
def hostMlp128 (h agg : FVec Ideal S50000x128 .f32) (Wa : FVec Ideal S128x128 .f32)
    (ba : FVec Ideal S128 .f32) (Wb : FVec Ideal S128x128 .f32)
    (bb : FVec Ideal S128 .f32) : FVec Ideal S50000x128 .f32 :=
  maximumf (addf (Host.dotGeneral dot_S50000x128_S128x128_S50000x128_1_0_0_1_n_n none (maximumf (addf (Host.dotGeneral dot_S50000x128_S128x128_S50000x128_1_0_0_1_n_n none (addf h agg) Wa) (broadcastInDim S50000x128 ![0, 1] bcast_S1x128_S50000x128_0_1 (broadcastInDim S1x128 ![1] bcast_S128_S1x128_1 ba))) (broadcastInDim S50000x128 ![] bcast_S_S50000x128 (constant S_ .f32 0x00000000#32))) Wb) (broadcastInDim S50000x128 ![0, 1] bcast_S1x128_S50000x128_0_1 (broadcastInDim S1x128 ![1] bcast_S128_S1x128_1 bb))) (broadcastInDim S50000x128 ![] bcast_S_S50000x128 (constant S_ .f32 0x00000000#32))

/-- The host's perceptron for 2 input features (the first layer). -/
def hostMlp2 (h agg : FVec Ideal S50000x2 .f32) (Wa : FVec Ideal S2x128 .f32)
    (ba : FVec Ideal S128 .f32) (Wb : FVec Ideal S128x128 .f32)
    (bb : FVec Ideal S128 .f32) : FVec Ideal S50000x128 .f32 :=
  maximumf (addf (Host.dotGeneral dot_S50000x128_S128x128_S50000x128_1_0_0_1_n_n none (maximumf (addf (Host.dotGeneral dot_S50000x2_S2x128_S50000x128_1_0_0_1_n_n none (addf h agg) Wa) (broadcastInDim S50000x128 ![0, 1] bcast_S1x128_S50000x128_0_1 (broadcastInDim S1x128 ![1] bcast_S128_S1x128_1 ba))) (broadcastInDim S50000x128 ![] bcast_S_S50000x128 (constant S_ .f32 0x00000000#32))) Wb) (broadcastInDim S50000x128 ![0, 1] bcast_S1x128_S50000x128_0_1 (broadcastInDim S1x128 ![1] bcast_S128_S1x128_1 bb))) (broadcastInDim S50000x128 ![] bcast_S_S50000x128 (constant S_ .f32 0x00000000#32))

/-- A bias broadcast to a row and then down the rows, at (r, q), is the bias' entry q. -/
theorem bias_apply (b : FVec Ideal S128 .f32) (r : Fin 50000) (q : Fin 128) :
    broadcastInDim S50000x128 ![0, 1] bcast_S1x128_S50000x128_0_1 (broadcastInDim S1x128 ![1] bcast_S128_S1x128_1 b) (ix2 r q)
      = b (ix1 q) := by
  refine (broadcastInDim_apply _ bcast_S1x128_S50000x128_0_1 _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- The splat of the float zero, at any entry. -/
theorem zero_apply (r : Fin 50000) (q : Fin 128) :
    broadcastInDim S50000x128 ![] bcast_S_S50000x128 (constant (F := Ideal) S_ .f32 0x00000000#32) (ix2 r q) = zeroF :=
  broadcastInDim_apply _ bcast_S_S50000x128 _ (ix2 r q) ix0 (fun a => a.elim0)

/-- The host's 50000×128 by 128×128 product at (r, q). -/
theorem dot128_apply (A : FVec Ideal S50000x128 .f32) (B : FVec Ideal S128x128 .f32)
    (r : Fin 50000) (q : Fin 128) :
    Host.dotGeneral dot_S50000x128_S128x128_S50000x128_1_0_0_1_n_n none A B (ix2 r q) = ∑ k : Fin 128, A (ix2 r k) * B (ix2 k q) :=
  Cert.LibHostDot.dotGeneral_plain_apply' dot_S50000x128_S128x128_S50000x128_1_0_0_1_n_n
    dot_S50000x128_S128x128_S50000x128_1_0_0_1_n_n_wf rfl none A B r q

/-- The host's 50000×2 by 2×128 product at (r, q). -/
theorem dot2_apply (A : FVec Ideal S50000x2 .f32) (B : FVec Ideal S2x128 .f32)
    (r : Fin 50000) (q : Fin 128) :
    Host.dotGeneral dot_S50000x2_S2x128_S50000x128_1_0_0_1_n_n none A B (ix2 r q) = ∑ k : Fin 2, A (ix2 r k) * B (ix2 k q) :=
  Cert.LibHostDot.dotGeneral_plain_apply' dot_S50000x2_S2x128_S50000x128_1_0_0_1_n_n
    dot_S50000x2_S2x128_S50000x128_1_0_0_1_n_n_wf rfl none A B r q

/-- Entry (r, q) of the host's perceptron is the perceptron row of row r of `h + agg`. -/
theorem hostMlp128_apply (h agg : FVec Ideal S50000x128 .f32) (Wa : FVec Ideal S128x128 .f32)
    (ba : FVec Ideal S128 .f32) (Wb : FVec Ideal S128x128 .f32)
    (bb : FVec Ideal S128 .f32) (r : Fin 50000) (q : Fin 128) :
    hostMlp128 h agg Wa ba Wb bb (ix2 r q)
      = mlpRow (fun j : Fin 128 => h (ix2 r j) + agg (ix2 r j)) (fun j k => Wa (ix2 j k)) (fun k => ba (ix1 k))
          (fun k q => Wb (ix2 k q)) (fun q => bb (ix1 q)) zeroF q := by
  unfold hostMlp128 mlpRow
  simp only [maximumf_apply, addf_apply, dot128_apply]
  exact congrArg₂ max
    (congrArg₂ (· + ·)
      (Finset.sum_congr rfl fun x _ =>
        congrArg (· * Wb (ix2 x q))
          (congrArg₂ max (congrArg (_ + ·) (bias_apply ba r x)) (zero_apply r x)))
      (bias_apply bb r q))
    (zero_apply r q)

/-- The same for the first layer's 2 input features. -/
theorem hostMlp2_apply (h agg : FVec Ideal S50000x2 .f32) (Wa : FVec Ideal S2x128 .f32)
    (ba : FVec Ideal S128 .f32) (Wb : FVec Ideal S128x128 .f32)
    (bb : FVec Ideal S128 .f32) (r : Fin 50000) (q : Fin 128) :
    hostMlp2 h agg Wa ba Wb bb (ix2 r q)
      = mlpRow (fun j : Fin 2 => h (ix2 r j) + agg (ix2 r j)) (fun j k => Wa (ix2 j k)) (fun k => ba (ix1 k))
          (fun k q => Wb (ix2 k q)) (fun q => bb (ix1 q)) zeroF q := by
  unfold hostMlp2 mlpRow
  simp only [maximumf_apply, addf_apply, dot128_apply, dot2_apply]
  exact congrArg₂ max
    (congrArg₂ (· + ·)
      (Finset.sum_congr rfl fun x _ =>
        congrArg (· * Wb (ix2 x q))
          (congrArg₂ max (congrArg (_ + ·) (bias_apply ba r x)) (zero_apply r x)))
      (bias_apply bb r q))
    (zero_apply r q)

end Cert.Bridge

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.KernelPay.lean ====
/-
  The kernel body of the graph-convolution perceptron, read at an entry.  On a tile of 10000 rows the body adds the
  node features and the aggregated neighbour features, multiplies by `Wa`, adds the bias row, rectifies, multiplies by
  `Wb`, adds the second bias row and rectifies.  Entry (p, q) of what it stores is the perceptron row `mlpRow` of row
  p of the sum; the tile's other rows do not enter.
-/
import proofs.«151027_j4887672783293_2_alg».proof.Proof.Gen.KernelIdeal.Skeleton
import proofs.«151027_j4887672783293_2_alg».proof.Proof.MlpRow
import proofs.«151027_j4887672783293_2_alg».proof.Proof.LibRowOps
import Idealize.ShloMosaic.Lib.Pipeline.Value
import Idealize.ShloMosaic.Lib.ValueIdx

noncomputable section

namespace Cert.Bridge

open Idealize.ShloMosaic Idealize.ShloMosaic.ValueIdx Cert.KernelIdeal Cert.KernelIdeal.Gen

/-- A tile's 10000×128 by 128×128 product into the zero accumulator, at (p, q). -/
theorem mm128_apply (A : FVec Ideal S10000x128 .f32) (B : FVec Ideal S128x128 .f32) (p : Fin 10000) (q : Fin 128) :
    matmul dot_S10000x128_S128x128_S10000x128_1_0_0_1_n_n none A B (constant (F := Ideal) S10000x128 .f32 0x00000000#32) (ix2 p q)
      = ∑ k : Fin 128, A (ix2 p k) * B (ix2 k q) :=
  Cert.KernelBody.matmul_plain_zero_apply dot_S10000x128_S128x128_S10000x128_1_0_0_1_n_n_wf none A B p q

/-- A tile's 10000×2 by 2×128 product into the zero accumulator, at (p, q). -/
theorem mm2_apply (A : FVec Ideal S10000x2 .f32) (B : FVec Ideal S2x128 .f32) (p : Fin 10000) (q : Fin 128) :
    matmul dot_S10000x2_S2x128_S10000x128_1_0_0_1_n_n none A B (constant (F := Ideal) S10000x128 .f32 0x00000000#32) (ix2 p q)
      = ∑ k : Fin 2, A (ix2 p k) * B (ix2 k q) :=
  Cert.KernelBody.matmul_plain_zero_apply dot_S10000x2_S2x128_S10000x128_1_0_0_1_n_n_wf none A B p q

/-- A bias row broadcast down the tile's rows, at (p, q), is the row's entry (0, q). -/
theorem biasRow_apply (b : FVec Ideal S1x128 .f32) (p : Fin 10000) (q : Fin 128) :
    broadcastTo S10000x128 b broadcasts_S1x128_S10000x128 (ix2 p q) = b (ix2 (0 : Fin 1) q) :=
  Cert.KernelBody.broadcastTo_row_apply b broadcasts_S1x128_S10000x128 p q

/-- Layer 2: entry (p, q) of the body's store. -/
theorem k1_pay1_apply (x0 x1 : FVec Ideal S10000x128 .f32) (Wa : FVec Ideal S128x128 .f32) (b1 : FVec Ideal S1x128 .f32)
    (Wb : FVec Ideal S128x128 .f32) (b2 : FVec Ideal S1x128 .f32) (p : Fin 10000) (q : Fin 128) :
    k1_pay1 (F := Ideal) x0 x1 Wa b1 Wb b2 (ix2 p q)
      = mlpRow (fun j : Fin 128 => x0 (ix2 p j) + x1 (ix2 p j)) (fun j k => Wa (ix2 j k)) (fun k => b1 (ix2 (0 : Fin 1) k))
          (fun k q => Wb (ix2 k q)) (fun q => b2 (ix2 (0 : Fin 1) q)) zeroF q := by
  unfold k1_pay1 mlpRow
  simp only [shapeCast_self, maximumf_apply, addf_apply, mm128_apply, biasRow_apply, broadcast_apply]
  rfl

/-- Layer 1 (2 input features): entry (p, q) of the body's store. -/
theorem k0_pay1_apply (x0 x1 : FVec Ideal S10000x2 .f32) (Wa : FVec Ideal S2x128 .f32) (b1 : FVec Ideal S1x128 .f32)
    (Wb : FVec Ideal S128x128 .f32) (b2 : FVec Ideal S1x128 .f32) (p : Fin 10000) (q : Fin 128) :
    k0_pay1 (F := Ideal) x0 x1 Wa b1 Wb b2 (ix2 p q)
      = mlpRow (fun j : Fin 2 => x0 (ix2 p j) + x1 (ix2 p j)) (fun j k => Wa (ix2 j k)) (fun k => b1 (ix2 (0 : Fin 1) k))
          (fun k q => Wb (ix2 k q)) (fun q => b2 (ix2 (0 : Fin 1) q)) zeroF q := by
  unfold k0_pay1 mlpRow
  simp only [shapeCast_self, maximumf_apply, addf_apply, mm128_apply, mm2_apply, biasRow_apply, broadcast_apply]
  rfl

/-- Layer 3 has the same body. -/
theorem k2_pay1_apply (x0 x1 : FVec Ideal S10000x128 .f32) (Wa : FVec Ideal S128x128 .f32) (b1 : FVec Ideal S1x128 .f32)
    (Wb : FVec Ideal S128x128 .f32) (b2 : FVec Ideal S1x128 .f32) (p : Fin 10000) (q : Fin 128) :
    k2_pay1 (F := Ideal) x0 x1 Wa b1 Wb b2 (ix2 p q)
      = mlpRow (fun j : Fin 128 => x0 (ix2 p j) + x1 (ix2 p j)) (fun j k => Wa (ix2 j k)) (fun k => b1 (ix2 (0 : Fin 1) k))
          (fun k q => Wb (ix2 k q)) (fun q => b2 (ix2 (0 : Fin 1) q)) zeroF q := by
  unfold k2_pay1 mlpRow
  simp only [shapeCast_self, maximumf_apply, addf_apply, mm128_apply, biasRow_apply, broadcast_apply]
  rfl

/-- Layer 4 has the same body. -/
theorem k3_pay1_apply (x0 x1 : FVec Ideal S10000x128 .f32) (Wa : FVec Ideal S128x128 .f32) (b1 : FVec Ideal S1x128 .f32)
    (Wb : FVec Ideal S128x128 .f32) (b2 : FVec Ideal S1x128 .f32) (p : Fin 10000) (q : Fin 128) :
    k3_pay1 (F := Ideal) x0 x1 Wa b1 Wb b2 (ix2 p q)
      = mlpRow (fun j : Fin 128 => x0 (ix2 p j) + x1 (ix2 p j)) (fun j k => Wa (ix2 j k)) (fun k => b1 (ix2 (0 : Fin 1) k))
          (fun k q => Wb (ix2 k q)) (fun q => b2 (ix2 (0 : Fin 1) q)) zeroF q := by
  unfold k3_pay1 mlpRow
  simp only [shapeCast_self, maximumf_apply, addf_apply, mm128_apply, biasRow_apply, broadcast_apply]
  rfl

end Cert.Bridge

end
-- ==== Proof.Region0.lean ====
/-
  Region 0 of the kernel: the graph-convolution perceptron on five tiles of 10000 rows.  Tile t reads rows
  10000·t … 10000·t + 9999 of the node features and of the aggregated features, and the whole weights and bias rows;
  what it writes back is rows 10000·t … of the host's perceptron of the whole arrays.  The five tiles cover the 50000
  rows, so the output array ends as the host's perceptron of the arrays the region was entered with.
-/
import proofs.«151027_j4887672783293_2_alg».proof.Proof.Gen.KernelIdeal.Frame
import proofs.«151027_j4887672783293_2_alg».proof.Proof.HostMlp
import proofs.«151027_j4887672783293_2_alg».proof.Proof.KernelPay

set_option maxRecDepth 16384

noncomputable section

namespace Cert.Bridge.R0

open Idealize.ShloMosaic Idealize.ShloMosaic.ValueIdx Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the five tiles: the row-tiled windows sit at block (t, 0), the others at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of tile t is row 10000·t + p of the array. -/
def rowOf (t : Fin cfg0.N) (p : Fin 10000) : Fin 50000 :=
  ⟨t.val * 10000 + p.val, by have h := t.isLt; have hN : cfg0.N = 5 := N_0; have hp := p.isLt; omega⟩

theorem blk_h (c : Dev nD) (t : Fin cfg0.N) (p : Fin 10000) (j : Fin 2) :
    iblk0 V c 0 t (ix2 p j) = V c main_arg0 (ix2 (rowOf t p) j) := by
  obtain ⟨e0, e1, -⟩ := idx_facts t
  show V c main_arg0 (((cfg0.win 0).blk t).view.emb (ix2 p j)) = V c main_arg0 (ix2 (rowOf t p) j)
  refine congrArg _ (funext fun a => Fin.ext ?_)
  match a with
  | ⟨0, _⟩ => show win0_0.index t (0 : Fin 2) * 10000 + 1 * p.val = t.val * 10000 + p.val; omega
  | ⟨1, _⟩ => show win0_0.index t (1 : Fin 2) * 2 + 1 * j.val = j.val; omega

theorem blk_agg (c : Dev nD) (t : Fin cfg0.N) (p : Fin 10000) (j : Fin 2) :
    iblk0 V c 1 t (ix2 p j) = V c main_v13 (ix2 (rowOf t p) j) := by
  obtain ⟨-, -, e0, e1, -⟩ := idx_facts t
  show V c main_v13 (((cfg0.win 1).blk t).view.emb (ix2 p j)) = V c main_v13 (ix2 (rowOf t p) j)
  refine congrArg _ (funext fun a => Fin.ext ?_)
  match a with
  | ⟨0, _⟩ => show win0_1.index t (0 : Fin 2) * 10000 + 1 * p.val = t.val * 10000 + p.val; omega
  | ⟨1, _⟩ => show win0_1.index t (1 : Fin 2) * 2 + 1 * j.val = j.val; omega

theorem blk_Wa (c : Dev nD) (t : Fin cfg0.N) (j : Fin 2) (k : Fin 128) :
    iblk0 V c 2 t (ix2 j k) = V c main_arg4 (ix2 j k) := by
  obtain ⟨-, -, -, -, e0, e1, -⟩ := idx_facts t
  show V c main_arg4 (((cfg0.win 2).blk t).view.emb (ix2 j k)) = V c main_arg4 (ix2 j k)
  refine congrArg _ (funext fun a => Fin.ext ?_)
  match a with
  | ⟨0, _⟩ => show win0_2.index t (0 : Fin 2) * 2 + 1 * j.val = j.val; omega
  | ⟨1, _⟩ => show win0_2.index t (1 : Fin 2) * 128 + 1 * k.val = k.val; omega

theorem blk_ba (c : Dev nD) (t : Fin cfg0.N) (k : Fin 128) :
    iblk0 V c 3 t (ix2 (0 : Fin 1) k) = V c main_v14 (ix2 (0 : Fin 1) k) := by
  obtain ⟨-, -, -, -, -, -, e0, e1, -⟩ := idx_facts t
  show V c main_v14 (((cfg0.win 3).blk t).view.emb (ix2 (0 : Fin 1) k)) = V c main_v14 (ix2 (0 : Fin 1) k)
  refine congrArg _ (funext fun a => Fin.ext ?_)
  match a with
  | ⟨0, _⟩ => show win0_3.index t (0 : Fin 2) * 1 + 1 * 0 = 0; omega
  | ⟨1, _⟩ => show win0_3.index t (1 : Fin 2) * 128 + 1 * k.val = k.val; omega

theorem blk_Wb (c : Dev nD) (t : Fin cfg0.N) (j : Fin 128) (k : Fin 128) :
    iblk0 V c 4 t (ix2 j k) = V c main_arg6 (ix2 j k) := by
  obtain ⟨-, -, -, -, -, -, -, -, e0, e1, -⟩ := idx_facts t
  show V c main_arg6 (((cfg0.win 4).blk t).view.emb (ix2 j k)) = V c main_arg6 (ix2 j k)
  refine congrArg _ (funext fun a => Fin.ext ?_)
  match a with
  | ⟨0, _⟩ => show win0_4.index t (0 : Fin 2) * 128 + 1 * j.val = j.val; omega
  | ⟨1, _⟩ => show win0_4.index t (1 : Fin 2) * 128 + 1 * k.val = k.val; omega

theorem blk_bb (c : Dev nD) (t : Fin cfg0.N) (k : Fin 128) :
    iblk0 V c 5 t (ix2 (0 : Fin 1) k) = V c main_v15 (ix2 (0 : Fin 1) k) := by
  obtain ⟨-, -, -, -, -, -, -, -, -, -, e0, e1, -⟩ := idx_facts t
  show V c main_v15 (((cfg0.win 5).blk t).view.emb (ix2 (0 : Fin 1) k)) = V c main_v15 (ix2 (0 : Fin 1) k)
  refine congrArg _ (funext fun a => Fin.ext ?_)
  match a with
  | ⟨0, _⟩ => show win0_5.index t (0 : Fin 2) * 1 + 1 * 0 = 0; omega
  | ⟨1, _⟩ => show win0_5.index t (1 : Fin 2) * 128 + 1 * k.val = k.val; omega

/-- Entry (p, q) of tile t's output block sits at row 10000·t + p, column q of the output array. -/
theorem emb_out (t : Fin cfg0.N) (p : Fin 10000) (q : Fin 128) :
    ((cfg0.win 6).blk t).view.emb (ix2 p q) = ix2 (rowOf t p) q := by
  obtain ⟨-, -, -, -, -, -, -, -, -, -, -, -, e0, e1⟩ := idx_facts t
  refine funext fun a => Fin.ext ?_
  match a with
  | ⟨0, _⟩ => show win0_6.index t (0 : Fin 2) * 10000 + 1 * p.val = t.val * 10000 + p.val; omega
  | ⟨1, _⟩ => show win0_6.index t (1 : Fin 2) * 128 + 1 * q.val = q.val; omega

/-- WHAT TILE t WRITES BACK is block t of the host's perceptron of the arrays the region was entered with; `ba`, `bb`
    are the bias vectors whose rows the region's bias windows hold. -/
theorem flushed_eq (c : Dev nD) (ba bb : (⟨Cert.ReferenceIdeal.S128, .f32⟩ : BufTy).Contents (Elt Ideal))
    (hba : ∀ k : Fin 128, V c main_v14 (ix2 (0 : Fin 1) k) = ba (ix1 k))
    (hbb : ∀ k : Fin 128, V c main_v15 (ix2 (0 : Fin 1) k) = bb (ix1 k)) (t : Fin cfg0.N) :
    (dat0 V c).flushed 6 t = ((cfg0.win 6).blk t).view.read (Elt Ideal)
      (hostMlp2 (V c main_arg0) (V c main_v13) (V c main_arg4) ba (V c main_arg6) bb) := by
  show (cfg0.win 6).cut (grid0.coords t) ((dat0 V c).after 6 t) = _
  rw [after0_6]
  unfold out0_6
  rw [View.canon_unit_zero hz]
  simp only [View.ld_unit_zero (S := S10000x2) hz, View.ld_unit_zero (S := S10000x128) hz, View.ld_unit_zero (S := S2x128) hz,
    View.ld_unit_zero (S := S128x128) hz, View.ld_unit_zero (S := S1x128) hz]
  funext y
  obtain ⟨p, q, rfl⟩ : ∃ (p : Fin 10000) (q : Fin 128), y = ix2 p q := ⟨y 0, y 1, eq_ix2 y⟩
  show k0_pay1 (F := Ideal) (iblk0 V c 0 t) (iblk0 V c 1 t) (iblk0 V c 2 t) (iblk0 V c 3 t) (iblk0 V c 4 t) (iblk0 V c 5 t) (ix2 p q)
    = hostMlp2 (V c main_arg0) (V c main_v13) (V c main_arg4) ba (V c main_arg6) bb (((cfg0.win 6).blk t).view.emb (ix2 p q))
  rw [emb_out t p q, hostMlp2_apply]
  refine (k0_pay1_apply _ _ _ _ _ _ p q).trans ?_
  simp only [blk_h V c t, blk_agg V c t, blk_Wa V c t, blk_ba V c t, blk_Wb V c t, blk_bb V c t, hba, hbb]

/-- An index of the output array is in tile t's block iff its row lies in the tile's range. -/
theorem mem_blk (t : Fin cfg0.N) (i : S50000x128.Idx) :
    i ∈ ((cfg0.win 6).blk t).view.set ↔ ∀ a : Fin 2, win0_6.index t a * S10000x128.size a ≤ (i a).val ∧ (i a).val < win0_6.index t a * S10000x128.size a + S10000x128.size a := by
  show i ∈ ((View.whole main_v16).slice (win0_6.rect t)).set ↔ _
  rw [View.set_slice_whole, Rect.mem_set_unit]
  exact Iff.rfl

/-- Every row is in some tile: row r is in tile r / 10000. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 5 := N_0
  let t : Fin cfg0.N := ⟨(i 0).val / 10000, by omega⟩
  obtain ⟨-, -, -, -, -, -, -, -, -, -, -, -, e0, e1⟩ := idx_facts t
  have ht : t.val = (i 0).val / 10000 := rfl
  refine ⟨t, flush0_6 t, ?_⟩
  rw [mem_blk]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 128 ≤ (i 1).val ∧ (i 1).val < win0_6.index t (1 : Fin 2) * 128 + 128; omega

/-- THE OUTPUT ARRAY after the region: the host's perceptron of the arrays the region was entered with. -/
theorem final (c : Dev nD) (ba bb : (⟨Cert.ReferenceIdeal.S128, .f32⟩ : BufTy).Contents (Elt Ideal))
    (hba : ∀ k : Fin 128, V c main_v14 (ix2 (0 : Fin 1) k) = ba (ix1 k))
    (hbb : ∀ k : Fin 128, V c main_v15 (ix2 (0 : Fin 1) k) = bb (ix1 k)) :
    (dat0 V c).arrAt 6 cfg0.N = hostMlp2 (V c main_arg0) (V c main_v13) (V c main_arg4) ba (V c main_arg6) bb :=
  (dat0 V c).arrAt_eq_of_cover 6 _ (fun t _ => flushed_eq V c ba bb hba hbb t) (cover)

end Cert.Bridge.R0

end
-- ==== Proof.Region1.lean ====
/-
  Region 1 of the kernel: the graph-convolution perceptron on five tiles of 10000 rows.  Tile t reads rows
  10000·t … 10000·t + 9999 of the node features and of the aggregated features, and the whole weights and bias rows;
  what it writes back is rows 10000·t … of the host's perceptron of the whole arrays.  The five tiles cover the 50000
  rows, so the output array ends as the host's perceptron of the arrays the region was entered with.
-/
import proofs.«151027_j4887672783293_2_alg».proof.Proof.Gen.KernelIdeal.Frame
import proofs.«151027_j4887672783293_2_alg».proof.Proof.HostMlp
import proofs.«151027_j4887672783293_2_alg».proof.Proof.KernelPay

set_option maxRecDepth 16384

noncomputable section

namespace Cert.Bridge.R1

open Idealize.ShloMosaic Idealize.ShloMosaic.ValueIdx Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the five tiles: the row-tiled windows sit at block (t, 0), the others at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of tile t is row 10000·t + p of the array. -/
def rowOf (t : Fin cfg1.N) (p : Fin 10000) : Fin 50000 :=
  ⟨t.val * 10000 + p.val, by have h := t.isLt; have hN : cfg1.N = 5 := N_1; have hp := p.isLt; omega⟩

theorem blk_h (c : Dev nD) (t : Fin cfg1.N) (p : Fin 10000) (j : Fin 128) :
    iblk1 V c 0 t (ix2 p j) = V c main_v16 (ix2 (rowOf t p) j) := by
  obtain ⟨e0, e1, -⟩ := idx_facts t
  show V c main_v16 (((cfg1.win 0).blk t).view.emb (ix2 p j)) = V c main_v16 (ix2 (rowOf t p) j)
  refine congrArg _ (funext fun a => Fin.ext ?_)
  match a with
  | ⟨0, _⟩ => show win1_0.index t (0 : Fin 2) * 10000 + 1 * p.val = t.val * 10000 + p.val; omega
  | ⟨1, _⟩ => show win1_0.index t (1 : Fin 2) * 128 + 1 * j.val = j.val; omega

theorem blk_agg (c : Dev nD) (t : Fin cfg1.N) (p : Fin 10000) (j : Fin 128) :
    iblk1 V c 1 t (ix2 p j) = V c main_v34 (ix2 (rowOf t p) j) := by
  obtain ⟨-, -, e0, e1, -⟩ := idx_facts t
  show V c main_v34 (((cfg1.win 1).blk t).view.emb (ix2 p j)) = V c main_v34 (ix2 (rowOf t p) j)
  refine congrArg _ (funext fun a => Fin.ext ?_)
  match a with
  | ⟨0, _⟩ => show win1_1.index t (0 : Fin 2) * 10000 + 1 * p.val = t.val * 10000 + p.val; omega
  | ⟨1, _⟩ => show win1_1.index t (1 : Fin 2) * 128 + 1 * j.val = j.val; omega

theorem blk_Wa (c : Dev nD) (t : Fin cfg1.N) (j : Fin 128) (k : Fin 128) :
    iblk1 V c 2 t (ix2 j k) = V c main_v18 (ix2 j k) := by
  obtain ⟨-, -, -, -, e0, e1, -⟩ := idx_facts t
  show V c main_v18 (((cfg1.win 2).blk t).view.emb (ix2 j k)) = V c main_v18 (ix2 j k)
  refine congrArg _ (funext fun a => Fin.ext ?_)
  match a with
  | ⟨0, _⟩ => show win1_2.index t (0 : Fin 2) * 128 + 1 * j.val = j.val; omega
  | ⟨1, _⟩ => show win1_2.index t (1 : Fin 2) * 128 + 1 * k.val = k.val; omega

theorem blk_ba (c : Dev nD) (t : Fin cfg1.N) (k : Fin 128) :
    iblk1 V c 3 t (ix2 (0 : Fin 1) k) = V c main_v35 (ix2 (0 : Fin 1) k) := by
  obtain ⟨-, -, -, -, -, -, e0, e1, -⟩ := idx_facts t
  show V c main_v35 (((cfg1.win 3).blk t).view.emb (ix2 (0 : Fin 1) k)) = V c main_v35 (ix2 (0 : Fin 1) k)
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * k.val = k.val; omega

theorem blk_Wb (c : Dev nD) (t : Fin cfg1.N) (j : Fin 128) (k : Fin 128) :
    iblk1 V c 4 t (ix2 j k) = V c main_v22 (ix2 j k) := by
  obtain ⟨-, -, -, -, -, -, -, -, e0, e1, -⟩ := idx_facts t
  show V c main_v22 (((cfg1.win 4).blk t).view.emb (ix2 j k)) = V c main_v22 (ix2 j k)
  refine congrArg _ (funext fun a => Fin.ext ?_)
  match a with
  | ⟨0, _⟩ => show win1_4.index t (0 : Fin 2) * 128 + 1 * j.val = j.val; omega
  | ⟨1, _⟩ => show win1_4.index t (1 : Fin 2) * 128 + 1 * k.val = k.val; omega

theorem blk_bb (c : Dev nD) (t : Fin cfg1.N) (k : Fin 128) :
    iblk1 V c 5 t (ix2 (0 : Fin 1) k) = V c main_v36 (ix2 (0 : Fin 1) k) := by
  obtain ⟨-, -, -, -, -, -, -, -, -, -, e0, e1, -⟩ := idx_facts t
  show V c main_v36 (((cfg1.win 5).blk t).view.emb (ix2 (0 : Fin 1) k)) = V c main_v36 (ix2 (0 : Fin 1) k)
  refine congrArg _ (funext fun a => Fin.ext ?_)
  match a with
  | ⟨0, _⟩ => show win1_5.index t (0 : Fin 2) * 1 + 1 * 0 = 0; omega
  | ⟨1, _⟩ => show win1_5.index t (1 : Fin 2) * 128 + 1 * k.val = k.val; omega

/-- Entry (p, q) of tile t's output block sits at row 10000·t + p, column q of the output array. -/
theorem emb_out (t : Fin cfg1.N) (p : Fin 10000) (q : Fin 128) :
    ((cfg1.win 6).blk t).view.emb (ix2 p q) = ix2 (rowOf t p) q := by
  obtain ⟨-, -, -, -, -, -, -, -, -, -, -, -, e0, e1⟩ := idx_facts t
  refine funext fun a => Fin.ext ?_
  match a with
  | ⟨0, _⟩ => show win1_6.index t (0 : Fin 2) * 10000 + 1 * p.val = t.val * 10000 + p.val; omega
  | ⟨1, _⟩ => show win1_6.index t (1 : Fin 2) * 128 + 1 * q.val = q.val; omega

/-- WHAT TILE t WRITES BACK is block t of the host's perceptron of the arrays the region was entered with; `ba`, `bb`
    are the bias vectors whose rows the region's bias windows hold. -/
theorem flushed_eq (c : Dev nD) (ba bb : (⟨Cert.ReferenceIdeal.S128, .f32⟩ : BufTy).Contents (Elt Ideal))
    (hba : ∀ k : Fin 128, V c main_v35 (ix2 (0 : Fin 1) k) = ba (ix1 k))
    (hbb : ∀ k : Fin 128, V c main_v36 (ix2 (0 : Fin 1) k) = bb (ix1 k)) (t : Fin cfg1.N) :
    (dat1 V c).flushed 6 t = ((cfg1.win 6).blk t).view.read (Elt Ideal)
      (hostMlp128 (V c main_v16) (V c main_v34) (V c main_v18) ba (V c main_v22) bb) := by
  show (cfg1.win 6).cut (grid1.coords t) ((dat1 V c).after 6 t) = _
  rw [after1_6]
  unfold out1_6
  rw [View.canon_unit_zero hz]
  simp only [View.ld_unit_zero (S := S10000x128) hz, View.ld_unit_zero (S := S10000x128) hz, View.ld_unit_zero (S := S128x128) hz,
    View.ld_unit_zero (S := S128x128) hz, View.ld_unit_zero (S := S1x128) hz]
  funext y
  obtain ⟨p, q, rfl⟩ : ∃ (p : Fin 10000) (q : Fin 128), y = ix2 p q := ⟨y 0, y 1, eq_ix2 y⟩
  show k1_pay1 (F := Ideal) (iblk1 V c 0 t) (iblk1 V c 1 t) (iblk1 V c 2 t) (iblk1 V c 3 t) (iblk1 V c 4 t) (iblk1 V c 5 t) (ix2 p q)
    = hostMlp128 (V c main_v16) (V c main_v34) (V c main_v18) ba (V c main_v22) bb (((cfg1.win 6).blk t).view.emb (ix2 p q))
  rw [emb_out t p q, hostMlp128_apply]
  refine (k1_pay1_apply _ _ _ _ _ _ p q).trans ?_
  simp only [blk_h V c t, blk_agg V c t, blk_Wa V c t, blk_ba V c t, blk_Wb V c t, blk_bb V c t, hba, hbb]

/-- An index of the output array is in tile t's block iff its row lies in the tile's range. -/
theorem mem_blk (t : Fin cfg1.N) (i : S50000x128.Idx) :
    i ∈ ((cfg1.win 6).blk t).view.set ↔ ∀ a : Fin 2, win1_6.index t a * S10000x128.size a ≤ (i a).val ∧ (i a).val < win1_6.index t a * S10000x128.size a + S10000x128.size a := by
  show i ∈ ((View.whole main_v37).slice (win1_6.rect t)).set ↔ _
  rw [View.set_slice_whole, Rect.mem_set_unit]
  exact Iff.rfl

/-- Every row is in some tile: row r is in tile r / 10000. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 5 := N_1
  let t : Fin cfg1.N := ⟨(i 0).val / 10000, by omega⟩
  obtain ⟨-, -, -, -, -, -, -, -, -, -, -, -, e0, e1⟩ := idx_facts t
  have ht : t.val = (i 0).val / 10000 := rfl
  refine ⟨t, flush1_6 t, ?_⟩
  rw [mem_blk]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 128 ≤ (i 1).val ∧ (i 1).val < win1_6.index t (1 : Fin 2) * 128 + 128; omega

/-- THE OUTPUT ARRAY after the region: the host's perceptron of the arrays the region was entered with. -/
theorem final (c : Dev nD) (ba bb : (⟨Cert.ReferenceIdeal.S128, .f32⟩ : BufTy).Contents (Elt Ideal))
    (hba : ∀ k : Fin 128, V c main_v35 (ix2 (0 : Fin 1) k) = ba (ix1 k))
    (hbb : ∀ k : Fin 128, V c main_v36 (ix2 (0 : Fin 1) k) = bb (ix1 k)) :
    (dat1 V c).arrAt 6 cfg1.N = hostMlp128 (V c main_v16) (V c main_v34) (V c main_v18) ba (V c main_v22) bb :=
  (dat1 V c).arrAt_eq_of_cover 6 _ (fun t _ => flushed_eq V c ba bb hba hbb t) (cover)

end Cert.Bridge.R1

end
-- ==== Proof.Region2.lean ====
/-
  Region 2 of the kernel: the graph-convolution perceptron on five tiles of 10000 rows.  Tile t reads rows
  10000·t … 10000·t + 9999 of the node features and of the aggregated features, and the whole weights and bias rows;
  what it writes back is rows 10000·t … of the host's perceptron of the whole arrays.  The five tiles cover the 50000
  rows, so the output array ends as the host's perceptron of the arrays the region was entered with.
-/
import proofs.«151027_j4887672783293_2_alg».proof.Proof.Gen.KernelIdeal.Frame
import proofs.«151027_j4887672783293_2_alg».proof.Proof.HostMlp
import proofs.«151027_j4887672783293_2_alg».proof.Proof.KernelPay

set_option maxRecDepth 16384

noncomputable section

namespace Cert.Bridge.R2

open Idealize.ShloMosaic Idealize.ShloMosaic.ValueIdx Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the five tiles: the row-tiled windows sit at block (t, 0), the others at (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row p of tile t is row 10000·t + p of the array. -/
def rowOf (t : Fin cfg2.N) (p : Fin 10000) : Fin 50000 :=
  ⟨t.val * 10000 + p.val, by have h := t.isLt; have hN : cfg2.N = 5 := N_2; have hp := p.isLt; omega⟩

theorem blk_h (c : Dev nD) (t : Fin cfg2.N) (p : Fin 10000) (j : Fin 128) :
    iblk2 V c 0 t (ix2 p j) = V c main_v37 (ix2 (rowOf t p) j) := by
  obtain ⟨e0, e1, -⟩ := idx_facts t
  show V c main_v37 (((cfg2.win 0).blk t).view.emb (ix2 p j)) = V c main_v37 (ix2 (rowOf t p) j)
  refine congrArg _ (funext fun a => Fin.ext ?_)
  match a with
  | ⟨0, _⟩ => show win2_0.index t (0 : Fin 2) * 10000 + 1 * p.val = t.val * 10000 + p.val; omega
  | ⟨1, _⟩ => show win2_0.index t (1 : Fin 2) * 128 + 1 * j.val = j.val; omega

theorem blk_agg (c : Dev nD) (t : Fin cfg2.N) (p : Fin 10000) (j : Fin 128) :
    iblk2 V c 1 t (ix2 p j) = V c main_v55 (ix2 (rowOf t p) j) := by
  obtain ⟨-, -, e0, e1, -⟩ := idx_facts t
  show V c main_v55 (((cfg2.win 1).blk t).view.emb (ix2 p j)) = V c main_v55 (ix2 (rowOf t p) j)
  refine congrArg _ (funext fun a => Fin.ext ?_)
  match a with
  | ⟨0, _⟩ => show win2_1.index t (0 : Fin 2) * 10000 + 1 * p.val = t.val * 10000 + p.val; omega
  | ⟨1, _⟩ => show win2_1.index t (1 : Fin 2) * 128 + 1 * j.val = j.val; omega

theorem blk_Wa (c : Dev nD) (t : Fin cfg2.N) (j : Fin 128) (k : Fin 128) :
    iblk2 V c 2 t (ix2 j k) = V c main_v39 (ix2 j k) := by
  obtain ⟨-, -, -, -, e0, e1, -⟩ := idx_facts t
  show V c main_v39 (((cfg2.win 2).blk t).view.emb (ix2 j k)) = V c main_v39 (ix2 j k)
  refine congrArg _ (funext fun a => Fin.ext ?_)
  match a with
  | ⟨0, _⟩ => show win2_2.index t (0 : Fin 2) * 128 + 1 * j.val = j.val; omega
  | ⟨1, _⟩ => show win2_2.index t (1 : Fin 2) * 128 + 1 * k.val = k.val; omega

theorem blk_ba (c : Dev nD) (t : Fin cfg2.N) (k : Fin 128) :
    iblk2 V c 3 t (ix2 (0 : Fin 1) k) = V c main_v56 (ix2 (0 : Fin 1) k) := by
  obtain ⟨-, -, -, -, -, -, e0, e1, -⟩ := idx_facts t
  show V c main_v56 (((cfg2.win 3).blk t).view.emb (ix2 (0 : Fin 1) k)) = V c main_v56 (ix2 (0 : Fin 1) k)
  refine congrArg _ (funext fun a => Fin.ext ?_)
  match a with
  | ⟨0, _⟩ => show win2_3.index t (0 : Fin 2) * 1 + 1 * 0 = 0; omega
  | ⟨1, _⟩ => show win2_3.index t (1 : Fin 2) * 128 + 1 * k.val = k.val; omega

theorem blk_Wb (c : Dev nD) (t : Fin cfg2.N) (j : Fin 128) (k : Fin 128) :
    iblk2 V c 4 t (ix2 j k) = V c main_v43 (ix2 j k) := by
  obtain ⟨-, -, -, -, -, -, -, -, e0, e1, -⟩ := idx_facts t
  show V c main_v43 (((cfg2.win 4).blk t).view.emb (ix2 j k)) = V c main_v43 (ix2 j k)
  refine congrArg _ (funext fun a => Fin.ext ?_)
  match a with
  | ⟨0, _⟩ => show win2_4.index t (0 : Fin 2) * 128 + 1 * j.val = j.val; omega
  | ⟨1, _⟩ => show win2_4.index t (1 : Fin 2) * 128 + 1 * k.val = k.val; omega

theorem blk_bb (c : Dev nD) (t : Fin cfg2.N) (k : Fin 128) :
    iblk2 V c 5 t (ix2 (0 : Fin 1) k) = V c main_v57 (ix2 (0 : Fin 1) k) := by
  obtain ⟨-, -, -, -, -, -, -, -, -, -, e0, e1, -⟩ := idx_facts t
  show V c main_v57 (((cfg2.win 5).blk t).view.emb (ix2 (0 : Fin 1) k)) = V c main_v57 (ix2 (0 : Fin 1) k)
  refine congrArg _ (funext fun a => Fin.ext ?_)
  match a with
  | ⟨0, _⟩ => show win2_5.index t (0 : Fin 2) * 1 + 1 * 0 = 0; omega
  | ⟨1, _⟩ => show win2_5.index t (1 : Fin 2) * 128 + 1 * k.val = k.val; omega

/-- Entry (p, q) of tile t's output block sits at row 10000·t + p, column q of the output array. -/
theorem emb_out (t : Fin cfg2.N) (p : Fin 10000) (q : Fin 128) :
    ((cfg2.win 6).blk t).view.emb (ix2 p q) = ix2 (rowOf t p) q := by
  obtain ⟨-, -, -, -, -, -, -, -, -, -, -, -, e0, e1⟩ := idx_facts t
  refine funext fun a => Fin.ext ?_
  match a with
  | ⟨0, _⟩ => show win2_6.index t (0 : Fin 2) * 10000 + 1 * p.val = t.val * 10000 + p.val; omega
  | ⟨1, _⟩ => show win2_6.index t (1 : Fin 2) * 128 + 1 * q.val = q.val; omega

/-- WHAT TILE t WRITES BACK is block t of the host's perceptron of the arrays the region was entered with; `ba`, `bb`
    are the bias vectors whose rows the region's bias windows hold. -/
theorem flushed_eq (c : Dev nD) (ba bb : (⟨Cert.ReferenceIdeal.S128, .f32⟩ : BufTy).Contents (Elt Ideal))
    (hba : ∀ k : Fin 128, V c main_v56 (ix2 (0 : Fin 1) k) = ba (ix1 k))
    (hbb : ∀ k : Fin 128, V c main_v57 (ix2 (0 : Fin 1) k) = bb (ix1 k)) (t : Fin cfg2.N) :
    (dat2 V c).flushed 6 t = ((cfg2.win 6).blk t).view.read (Elt Ideal)
      (hostMlp128 (V c main_v37) (V c main_v55) (V c main_v39) ba (V c main_v43) bb) := by
  show (cfg2.win 6).cut (grid2.coords t) ((dat2 V c).after 6 t) = _
  rw [after2_6]
  unfold out2_6
  rw [View.canon_unit_zero hz]
  simp only [View.ld_unit_zero (S := S10000x128) hz, View.ld_unit_zero (S := S10000x128) hz, View.ld_unit_zero (S := S128x128) hz,
    View.ld_unit_zero (S := S128x128) hz, View.ld_unit_zero (S := S1x128) hz]
  funext y
  obtain ⟨p, q, rfl⟩ : ∃ (p : Fin 10000) (q : Fin 128), y = ix2 p q := ⟨y 0, y 1, eq_ix2 y⟩
  show k2_pay1 (F := Ideal) (iblk2 V c 0 t) (iblk2 V c 1 t) (iblk2 V c 2 t) (iblk2 V c 3 t) (iblk2 V c 4 t) (iblk2 V c 5 t) (ix2 p q)
    = hostMlp128 (V c main_v37) (V c main_v55) (V c main_v39) ba (V c main_v43) bb (((cfg2.win 6).blk t).view.emb (ix2 p q))
  rw [emb_out t p q, hostMlp128_apply]
  refine (k2_pay1_apply _ _ _ _ _ _ p q).trans ?_
  simp only [blk_h V c t, blk_agg V c t, blk_Wa V c t, blk_ba V c t, blk_Wb V c t, blk_bb V c t, hba, hbb]

/-- An index of the output array is in tile t's block iff its row lies in the tile's range. -/
theorem mem_blk (t : Fin cfg2.N) (i : S50000x128.Idx) :
    i ∈ ((cfg2.win 6).blk t).view.set ↔ ∀ a : Fin 2, win2_6.index t a * S10000x128.size a ≤ (i a).val ∧ (i a).val < win2_6.index t a * S10000x128.size a + S10000x128.size a := by
  show i ∈ ((View.whole main_v58).slice (win2_6.rect t)).set ↔ _
  rw [View.set_slice_whole, Rect.mem_set_unit]
  exact Iff.rfl

/-- Every row is in some tile: row r is in tile r / 10000. -/
theorem cover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 5 := N_2
  let t : Fin cfg2.N := ⟨(i 0).val / 10000, by omega⟩
  obtain ⟨-, -, -, -, -, -, -, -, -, -, -, -, e0, e1⟩ := idx_facts t
  have ht : t.val = (i 0).val / 10000 := rfl
  refine ⟨t, flush2_6 t, ?_⟩
  rw [mem_blk]
  intro a
  match a with
  | ⟨0, _⟩ => show win2_6.index t (0 : Fin 2) * 10000 ≤ (i 0).val ∧ (i 0).val < win2_6.index t (0 : Fin 2) * 10000 + 10000; omega
  | ⟨1, _⟩ => show win2_6.index t (1 : Fin 2) * 128 ≤ (i 1).val ∧ (i 1).val < win2_6.index t (1 : Fin 2) * 128 + 128; omega

/-- THE OUTPUT ARRAY after the region: the host's perceptron of the arrays the region was entered with. -/
theorem final (c : Dev nD) (ba bb : (⟨Cert.ReferenceIdeal.S128, .f32⟩ : BufTy).Contents (Elt Ideal))
    (hba : ∀ k : Fin 128, V c main_v56 (ix2 (0 : Fin 1) k) = ba (ix1 k))
    (hbb : ∀ k : Fin 128, V c main_v57 (ix2 (0 : Fin 1) k) = bb (ix1 k)) :
    (dat2 V c).arrAt 6 cfg2.N = hostMlp128 (V c main_v37) (V c main_v55) (V c main_v39) ba (V c main_v43) bb :=
  (dat2 V c).arrAt_eq_of_cover 6 _ (fun t _ => flushed_eq V c ba bb hba hbb t) (cover)

end Cert.Bridge.R2

end
-- ==== Proof.Region3.lean ====
/-
  Region 3 of the kernel: the graph-convolution perceptron on five tiles of 10000 rows.  Tile t reads rows
  10000·t … 10000·t + 9999 of the node features and of the aggregated features, and the whole weights and bias rows;
  what it writes back is rows 10000·t … of the host's perceptron of the whole arrays.  The five tiles cover the 50000
  rows, so the output array ends as the host's perceptron of the arrays the region was entered with.
-/
import proofs.«151027_j4887672783293_2_alg».proof.Proof.Gen.KernelIdeal.Frame
import proofs.«151027_j4887672783293_2_alg».proof.Proof.HostMlp
import proofs.«151027_j4887672783293_2_alg».proof.Proof.KernelPay

set_option maxRecDepth 16384

noncomputable section

namespace Cert.Bridge.R3

open Idealize.ShloMosaic Idealize.ShloMosaic.ValueIdx Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the five tiles: the row-tiled windows sit at block (t, 0), the others at (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row p of tile t is row 10000·t + p of the array. -/
def rowOf (t : Fin cfg3.N) (p : Fin 10000) : Fin 50000 :=
  ⟨t.val * 10000 + p.val, by have h := t.isLt; have hN : cfg3.N = 5 := N_3; have hp := p.isLt; omega⟩

theorem blk_h (c : Dev nD) (t : Fin cfg3.N) (p : Fin 10000) (j : Fin 128) :
    iblk3 V c 0 t (ix2 p j) = V c main_v58 (ix2 (rowOf t p) j) := by
  obtain ⟨e0, e1, -⟩ := idx_facts t
  show V c main_v58 (((cfg3.win 0).blk t).view.emb (ix2 p j)) = V c main_v58 (ix2 (rowOf t p) j)
  refine congrArg _ (funext fun a => Fin.ext ?_)
  match a with
  | ⟨0, _⟩ => show win3_0.index t (0 : Fin 2) * 10000 + 1 * p.val = t.val * 10000 + p.val; omega
  | ⟨1, _⟩ => show win3_0.index t (1 : Fin 2) * 128 + 1 * j.val = j.val; omega

theorem blk_agg (c : Dev nD) (t : Fin cfg3.N) (p : Fin 10000) (j : Fin 128) :
    iblk3 V c 1 t (ix2 p j) = V c main_v76 (ix2 (rowOf t p) j) := by
  obtain ⟨-, -, e0, e1, -⟩ := idx_facts t
  show V c main_v76 (((cfg3.win 1).blk t).view.emb (ix2 p j)) = V c main_v76 (ix2 (rowOf t p) j)
  refine congrArg _ (funext fun a => Fin.ext ?_)
  match a with
  | ⟨0, _⟩ => show win3_1.index t (0 : Fin 2) * 10000 + 1 * p.val = t.val * 10000 + p.val; omega
  | ⟨1, _⟩ => show win3_1.index t (1 : Fin 2) * 128 + 1 * j.val = j.val; omega

theorem blk_Wa (c : Dev nD) (t : Fin cfg3.N) (j : Fin 128) (k : Fin 128) :
    iblk3 V c 2 t (ix2 j k) = V c main_v60 (ix2 j k) := by
  obtain ⟨-, -, -, -, e0, e1, -⟩ := idx_facts t
  show V c main_v60 (((cfg3.win 2).blk t).view.emb (ix2 j k)) = V c main_v60 (ix2 j k)
  refine congrArg _ (funext fun a => Fin.ext ?_)
  match a with
  | ⟨0, _⟩ => show win3_2.index t (0 : Fin 2) * 128 + 1 * j.val = j.val; omega
  | ⟨1, _⟩ => show win3_2.index t (1 : Fin 2) * 128 + 1 * k.val = k.val; omega

theorem blk_ba (c : Dev nD) (t : Fin cfg3.N) (k : Fin 128) :
    iblk3 V c 3 t (ix2 (0 : Fin 1) k) = V c main_v77 (ix2 (0 : Fin 1) k) := by
  obtain ⟨-, -, -, -, -, -, e0, e1, -⟩ := idx_facts t
  show V c main_v77 (((cfg3.win 3).blk t).view.emb (ix2 (0 : Fin 1) k)) = V c main_v77 (ix2 (0 : Fin 1) k)
  refine congrArg _ (funext fun a => Fin.ext ?_)
  match a with
  | ⟨0, _⟩ => show win3_3.index t (0 : Fin 2) * 1 + 1 * 0 = 0; omega
  | ⟨1, _⟩ => show win3_3.index t (1 : Fin 2) * 128 + 1 * k.val = k.val; omega

theorem blk_Wb (c : Dev nD) (t : Fin cfg3.N) (j : Fin 128) (k : Fin 128) :
    iblk3 V c 4 t (ix2 j k) = V c main_v64 (ix2 j k) := by
  obtain ⟨-, -, -, -, -, -, -, -, e0, e1, -⟩ := idx_facts t
  show V c main_v64 (((cfg3.win 4).blk t).view.emb (ix2 j k)) = V c main_v64 (ix2 j k)
  refine congrArg _ (funext fun a => Fin.ext ?_)
  match a with
  | ⟨0, _⟩ => show win3_4.index t (0 : Fin 2) * 128 + 1 * j.val = j.val; omega
  | ⟨1, _⟩ => show win3_4.index t (1 : Fin 2) * 128 + 1 * k.val = k.val; omega

theorem blk_bb (c : Dev nD) (t : Fin cfg3.N) (k : Fin 128) :
    iblk3 V c 5 t (ix2 (0 : Fin 1) k) = V c main_v78 (ix2 (0 : Fin 1) k) := by
  obtain ⟨-, -, -, -, -, -, -, -, -, -, e0, e1, -⟩ := idx_facts t
  show V c main_v78 (((cfg3.win 5).blk t).view.emb (ix2 (0 : Fin 1) k)) = V c main_v78 (ix2 (0 : Fin 1) k)
  refine congrArg _ (funext fun a => Fin.ext ?_)
  match a with
  | ⟨0, _⟩ => show win3_5.index t (0 : Fin 2) * 1 + 1 * 0 = 0; omega
  | ⟨1, _⟩ => show win3_5.index t (1 : Fin 2) * 128 + 1 * k.val = k.val; omega

/-- Entry (p, q) of tile t's output block sits at row 10000·t + p, column q of the output array. -/
theorem emb_out (t : Fin cfg3.N) (p : Fin 10000) (q : Fin 128) :
    ((cfg3.win 6).blk t).view.emb (ix2 p q) = ix2 (rowOf t p) q := by
  obtain ⟨-, -, -, -, -, -, -, -, -, -, -, -, e0, e1⟩ := idx_facts t
  refine funext fun a => Fin.ext ?_
  match a with
  | ⟨0, _⟩ => show win3_6.index t (0 : Fin 2) * 10000 + 1 * p.val = t.val * 10000 + p.val; omega
  | ⟨1, _⟩ => show win3_6.index t (1 : Fin 2) * 128 + 1 * q.val = q.val; omega

/-- WHAT TILE t WRITES BACK is block t of the host's perceptron of the arrays the region was entered with; `ba`, `bb`
    are the bias vectors whose rows the region's bias windows hold. -/
theorem flushed_eq (c : Dev nD) (ba bb : (⟨Cert.ReferenceIdeal.S128, .f32⟩ : BufTy).Contents (Elt Ideal))
    (hba : ∀ k : Fin 128, V c main_v77 (ix2 (0 : Fin 1) k) = ba (ix1 k))
    (hbb : ∀ k : Fin 128, V c main_v78 (ix2 (0 : Fin 1) k) = bb (ix1 k)) (t : Fin cfg3.N) :
    (dat3 V c).flushed 6 t = ((cfg3.win 6).blk t).view.read (Elt Ideal)
      (hostMlp128 (V c main_v58) (V c main_v76) (V c main_v60) ba (V c main_v64) bb) := by
  show (cfg3.win 6).cut (grid3.coords t) ((dat3 V c).after 6 t) = _
  rw [after3_6]
  unfold out3_6
  rw [View.canon_unit_zero hz]
  simp only [View.ld_unit_zero (S := S10000x128) hz, View.ld_unit_zero (S := S10000x128) hz, View.ld_unit_zero (S := S128x128) hz,
    View.ld_unit_zero (S := S128x128) hz, View.ld_unit_zero (S := S1x128) hz]
  funext y
  obtain ⟨p, q, rfl⟩ : ∃ (p : Fin 10000) (q : Fin 128), y = ix2 p q := ⟨y 0, y 1, eq_ix2 y⟩
  show k3_pay1 (F := Ideal) (iblk3 V c 0 t) (iblk3 V c 1 t) (iblk3 V c 2 t) (iblk3 V c 3 t) (iblk3 V c 4 t) (iblk3 V c 5 t) (ix2 p q)
    = hostMlp128 (V c main_v58) (V c main_v76) (V c main_v60) ba (V c main_v64) bb (((cfg3.win 6).blk t).view.emb (ix2 p q))
  rw [emb_out t p q, hostMlp128_apply]
  refine (k3_pay1_apply _ _ _ _ _ _ p q).trans ?_
  simp only [blk_h V c t, blk_agg V c t, blk_Wa V c t, blk_ba V c t, blk_Wb V c t, blk_bb V c t, hba, hbb]

/-- An index of the output array is in tile t's block iff its row lies in the tile's range. -/
theorem mem_blk (t : Fin cfg3.N) (i : S50000x128.Idx) :
    i ∈ ((cfg3.win 6).blk t).view.set ↔ ∀ a : Fin 2, win3_6.index t a * S10000x128.size a ≤ (i a).val ∧ (i a).val < win3_6.index t a * S10000x128.size a + S10000x128.size a := by
  show i ∈ ((View.whole main_v79).slice (win3_6.rect t)).set ↔ _
  rw [View.set_slice_whole, Rect.mem_set_unit]
  exact Iff.rfl

/-- Every row is in some tile: row r is in tile r / 10000. -/
theorem cover (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 5 := N_3
  let t : Fin cfg3.N := ⟨(i 0).val / 10000, by omega⟩
  obtain ⟨-, -, -, -, -, -, -, -, -, -, -, -, e0, e1⟩ := idx_facts t
  have ht : t.val = (i 0).val / 10000 := rfl
  refine ⟨t, flush3_6 t, ?_⟩
  rw [mem_blk]
  intro a
  match a with
  | ⟨0, _⟩ => show win3_6.index t (0 : Fin 2) * 10000 ≤ (i 0).val ∧ (i 0).val < win3_6.index t (0 : Fin 2) * 10000 + 10000; omega
  | ⟨1, _⟩ => show win3_6.index t (1 : Fin 2) * 128 ≤ (i 1).val ∧ (i 1).val < win3_6.index t (1 : Fin 2) * 128 + 128; omega

/-- THE OUTPUT ARRAY after the region: the host's perceptron of the arrays the region was entered with. -/
theorem final (c : Dev nD) (ba bb : (⟨Cert.ReferenceIdeal.S128, .f32⟩ : BufTy).Contents (Elt Ideal))
    (hba : ∀ k : Fin 128, V c main_v77 (ix2 (0 : Fin 1) k) = ba (ix1 k))
    (hbb : ∀ k : Fin 128, V c main_v78 (ix2 (0 : Fin 1) k) = bb (ix1 k)) :
    (dat3 V c).arrAt 6 cfg3.N = hostMlp128 (V c main_v58) (V c main_v76) (V c main_v60) ba (V c main_v64) bb :=
  (dat3 V c).arrAt_eq_of_cover 6 _ (fun t _ => flushed_eq V c ba bb hba hbb t) (cover)

end Cert.Bridge.R3

end
-- ==== Proof.LibKeepdims.lean ====
/-
  Rank-2 vectors with a kept column, read at an index: the cast of a length-`a` vector to a column [a, 1], the
  broadcast of a column [a, 1] along the rows of [a, b], and the sum and the maximum of each row of an [a, b]
  vector over the extended reals.  Each says which ONE operand entry (or which row of entries) a result entry reads.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type} {a b : ℕ}

/-- Entry `(n, 0)` of the column cast of a vector is the vector's entry `n`: both sit at row-major position `n`. -/
theorem shapeCast_col_apply (x : (⟨1, ![a]⟩ : Shape).Idx → α) (h : (⟨1, ![a]⟩ : Shape).ShapeCasts ⟨2, ![a, 1]⟩) (n : Fin a) :
    shapeCast ⟨2, ![a, 1]⟩ x h (ix2 n (0 : Fin 1)) = x (ix1 n) :=
  shapeCast_apply x h (ix2 n (0 : Fin 1)) (ix1 n) (by
    rw [Shape.rowMajor_val_one, Shape.rowMajor_val_two]
    show n.val = n.val * 1 + 0
    omega)

/-- Entry `(n, d)` of a column broadcast along the rows is the column's entry `(n, 0)`. -/
theorem broadcastTo_col_apply (x : (⟨2, ![a, 1]⟩ : Shape).Idx → α) (h : (⟨2, ![a, 1]⟩ : Shape).Broadcasts ⟨2, ![a, b]⟩)
    (n : Fin a) (d : Fin b) : broadcastTo ⟨2, ![a, b]⟩ x h (ix2 n d) = x (ix2 n (0 : Fin 1)) :=
  broadcastTo_apply x h (ix2 n d) (ix2 n (0 : Fin 1)) (fun k => by
    match k with
    | ⟨0, _⟩ =>
      show n.val = if a = 1 then 0 else n.val
      have := n.isLt
      split <;> omega
    | ⟨1, _⟩ => rfl)

/-- The reduced index `n` of a row reduction with the column `k` put back is `(n, k)`. -/
theorem lift_row (h : (⟨2, ![a, b]⟩ : Shape).Reduces [1] ⟨1, ![a]⟩) (n : Fin a) (k : Fin b) :
    h.lift (ix1 n) k = ix2 n k := by
  funext c; apply Fin.ext
  fin_cases c <;> rfl

variable {φ : FTy}

/-- A row sum at row `n` is the sum of that row's entries. -/
theorem rowsum_apply (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (n : Fin a) :
    multiReduction .add [1] ⟨1, ![a]⟩ src acc h hφ hacc (ix1 n) = ∑ k : Fin b, src (ix2 n k) :=
  (Ideal.multiReduction_add_single src acc h hφ hacc (ix1 n)).trans
    (Finset.sum_congr rfl fun k _ => congrArg src (lift_row h n k))

/-- A row maximum at row `n` is the fold of `max` over that row's entries from the accumulator's value. -/
theorem rowmax_apply (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (n : Fin a) :
    multiReduction .maximumf [1] ⟨1, ![a]⟩ src acc h hφ hacc (ix1 n)
      = (Finset.univ : Finset (Fin b)).fold max (Ideal.ofBits φ acc) (fun k => src (ix2 n k)) :=
  (Ideal.multiReduction_maximumf_single src acc h hφ hacc (ix1 n)).trans
    (congrArg (fun f => (Finset.univ : Finset (Fin b)).fold max (Ideal.ofBits φ acc) f)
      (funext fun k => congrArg src (lift_row h n k)))

end Cert.LibKeepdims

end
-- ==== Proof.Head.lean ====
/-
  The classifier head, read at an entry.  From the pooled graph features `g` (64 rows of 128) both programs compute
  the logits  z = relu (g · W1 + b1) · W2 + b2  and then, row by row, the log-softmax: with m the maximum of a row z,
      out d = (z d − m) − log (Σ_k exp (z k − m)).
  The kernel takes the biases as rows [1, 128], folds the row maximum from the float −∞ and sums from the float zero;
  the host broadcasts the biases from [128], takes the larger of −∞ and the row maximum, and adds its row sum to the
  float zero.  Over the extended reals every operation is exact, so entry (n, d) of either result is the same
  expression `lsmRow (logitRow …) d` of row n of `g`, the weights and the biases.
-/
import proofs.«151027_j4887672783293_2_alg».proof.Proof.Gen.KernelIdeal.Skeleton
import proofs.«151027_j4887672783293_2_alg».proof.Proof.ReadPatched
import proofs.«151027_j4887672783293_2_alg».proof.Proof.LibRowOps
import proofs.«151027_j4887672783293_2_alg».proof.Proof.LibHostDot
import proofs.«151027_j4887672783293_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic Idealize.ShloMosaic.ValueIdx

/-! ## The two row functions -/

/-- Entry `q` of a row of logits: from a row `u` of 128 features,
    Σ_k max (Σ_j u j · Wa j k + ba k) 0 · Wb k q + bb q. -/
private def logitRow (u : Fin 128 → EReal) (Wa : Fin 128 → Fin 128 → EReal) (ba : Fin 128 → EReal)
    (Wb : Fin 128 → Fin 128 → EReal) (bb : Fin 128 → EReal) (q : Fin 128) : EReal :=
  (∑ k : Fin 128, max ((∑ j : Fin 128, u j * Wa j k) + ba k) (Ideal.ofBits .f32 0x00000000#32) * Wb k q) + bb q

/-- The maximum of a row, folded from the float −∞. -/
private def rowMax (z : Fin 128 → EReal) : EReal :=
  (Finset.univ : Finset (Fin 128)).fold max (Ideal.ofBits .f32 0xFF800000#32) z

/-- Entry `d` of the log-softmax of a row `z`. -/
private def lsmRow (z : Fin 128 → EReal) (d : Fin 128) : EReal :=
  (z d - rowMax z) - Ideal.log (∑ k : Fin 128, Ideal.exp (z k - rowMax z))

/-- The float −∞ is the least extended real: the larger of it and `y` is `y`. -/
private theorem negInf_max (y : EReal) : max (Ideal.ofBits .f32 0xFF800000#32) y = y := by
  simp [Ideal.ofBits, Ideal.ieee]

/-! ## The exponential and the logarithm at an entry -/

section Pointwise
variable {s : Shape}

private theorem vexp_apply (x : FVec Ideal s .f32) (i : s.Idx) : Idealize.ShloMosaic.exp x i = Ideal.exp (x i) := rfl
private theorem vlog_apply (x : FVec Ideal s .f32) (i : s.Idx) : Idealize.ShloMosaic.log x i = Ideal.log (x i) := rfl
private theorem hexp_apply (x : FVec Ideal s .f32) (i : s.Idx) : Host.exp x i = Ideal.exp (x i) := rfl
private theorem hlog_apply (x : FVec Ideal s .f32) (i : s.Idx) : Host.log x i = Ideal.log (x i) := rfl

end Pointwise

/-! ## The kernel's head at an entry -/

section Kernel
open Cert.KernelIdeal Cert.KernelIdeal.Gen

/-- The 64×128 by 128×128 product into the zero accumulator, at (n, q). -/
private theorem kMm_apply (A : FVec Ideal S64x128 .f32) (B : FVec Ideal S128x128 .f32) (n : Fin 64) (q : Fin 128) :
    matmul dot_S64x128_S128x128_S64x128_1_0_0_1_n_n none A B (constant (F := Ideal) S64x128 .f32 0x00000000#32) (ix2 n q)
      = ∑ k : Fin 128, A (ix2 n k) * B (ix2 k q) :=
  Cert.KernelBody.matmul_plain_zero_apply dot_S64x128_S128x128_S64x128_1_0_0_1_n_n_wf none A B n q

/-- A bias row broadcast down the 64 rows, at (n, q), is the row's entry (0, q). -/
private theorem kBias_apply (b : FVec Ideal S1x128 .f32) (n : Fin 64) (q : Fin 128) :
    broadcastTo S64x128 b broadcasts_S1x128_S64x128 (ix2 n q) = b (ix2 (0 : Fin 1) q) :=
  Cert.KernelBody.broadcastTo_row_apply b broadcasts_S1x128_S64x128 n q

/-- A kept column broadcast along the rows, at (n, q), is the column's entry (n, 0). -/
private theorem kCol_apply (c : FVec Ideal S64x1 .f32) (n : Fin 64) (q : Fin 128) :
    broadcastTo S64x128 c broadcasts_S64x1_S64x128 (ix2 n q) = c (ix2 n (0 : Fin 1)) :=
  Cert.LibKeepdims.broadcastTo_col_apply c broadcasts_S64x1_S64x128 n q

/-- A vector of 64 entries cast to a column, at (n, 0), is entry n. -/
private theorem kCast_apply (v : FVec Ideal S64 .f32) (n : Fin 64) :
    shapeCast S64x1 v shapeCasts_S64_S64x1 (ix2 n (0 : Fin 1)) = v (ix1 n) :=
  Cert.LibKeepdims.shapeCast_col_apply v shapeCasts_S64_S64x1 n

/-- The row maximum from −∞, at row n. -/
private theorem kRowMax_apply (x : FVec Ideal S64x128 .f32) (n : Fin 64) :
    multiReduction .maximumf [1] S64 x 0xFF800000#32 reduces_S64x128_S64 (.inl rfl) rfl (ix1 n)
      = rowMax (fun k => x (ix2 n k)) :=
  Cert.LibKeepdims.rowmax_apply x 0xFF800000#32 reduces_S64x128_S64 (.inl rfl) rfl n

/-- The row sum from zero, at row n. -/
private theorem kRowSum_apply (x : FVec Ideal S64x128 .f32) (n : Fin 64) :
    multiReduction .add [1] S64 x 0x00000000#32 reduces_S64x128_S64 (.inl rfl) rfl (ix1 n)
      = ∑ k : Fin 128, x (ix2 n k) :=
  Cert.LibKeepdims.rowsum_apply x 0x00000000#32 reduces_S64x128_S64 (.inl rfl) rfl n

/-- Entry (n, d) of what the kernel's last region stores. -/
private theorem k4_pay1_apply (g : FVec Ideal S64x128 .f32) (W1 W2 : FVec Ideal S128x128 .f32) (b1r b2r : FVec Ideal S1x128 .f32)
    (n : Fin 64) (d : Fin 128) :
    k4_pay1 (F := Ideal) g W1 b1r W2 b2r (ix2 n d)
      = lsmRow (fun q => logitRow (fun j => g (ix2 n j)) (fun j k => W1 (ix2 j k)) (fun k => b1r (ix2 (0 : Fin 1) k))
          (fun k q => W2 (ix2 k q)) (fun q => b2r (ix2 (0 : Fin 1) q)) q) d := by
  unfold k4_pay1 lsmRow logitRow
  simp only [shapeCast_self, subf_apply, kCol_apply, vlog_apply, kCast_apply]
  rw [kRowSum_apply]
  simp only [vexp_apply, subf_apply, kCol_apply, kCast_apply]
  rw [kRowMax_apply]
  simp only [addf_apply, kMm_apply, kBias_apply, maximumf_apply, broadcast_apply]
  rfl

end Kernel

/-! ## The reference's head at an entry -/

section Host
open Cert.ReferenceIdeal Cert.ReferenceIdeal.Gen

/-- The host's logits from the pooled features. -/
def refLogits (g : FVec Ideal S64x128 .f32) (W1 : FVec Ideal S128x128 .f32) (b1 : FVec Ideal S128 .f32)
    (W2 : FVec Ideal S128x128 .f32) (b2 : FVec Ideal S128 .f32) : FVec Ideal S64x128 .f32 :=
  addf (Host.dotGeneral dot_S64x128_S128x128_S64x128_1_0_0_1_n_n none (maximumf (addf (Host.dotGeneral dot_S64x128_S128x128_S64x128_1_0_0_1_n_n none g W1) (broadcastInDim S64x128 ![0, 1] bcast_S1x128_S64x128_0_1 (broadcastInDim S1x128 ![1] bcast_S128_S1x128_1 b1))) (broadcastInDim S64x128 ![] bcast_S_S64x128 (constant S_ .f32 0x00000000#32))) W2) (broadcastInDim S64x128 ![0, 1] bcast_S1x128_S64x128_0_1 (broadcastInDim S1x128 ![1] bcast_S128_S1x128_1 b2))

/-- The host's logits less each row's maximum. -/
def refShift (g : FVec Ideal S64x128 .f32) (W1 : FVec Ideal S128x128 .f32) (b1 : FVec Ideal S128 .f32)
    (W2 : FVec Ideal S128x128 .f32) (b2 : FVec Ideal S128 .f32) : FVec Ideal S64x128 .f32 :=
  subf (refLogits g W1 b1 W2 b2) (broadcastInDim S64x128 ![0, 1] bcast_S64x1_S64x128_0_1 (broadcastInDim S64x1 ![0] bcast_S64_S64x1_0 (maximumf (broadcastInDim S64 ![] bcast_S_S64 (constant S_ .f32 0xFF800000#32)) (Host.reduce FloatOps.maximumf (refLogits g W1 b1 W2 b2) (constant S_ .f32 0xFF800000#32) reducesTo_S64x128_S64_d1 h_S_))))

/-- The host's log-softmax of the logits. -/
def refHead (g : FVec Ideal S64x128 .f32) (W1 : FVec Ideal S128x128 .f32) (b1 : FVec Ideal S128 .f32)
    (W2 : FVec Ideal S128x128 .f32) (b2 : FVec Ideal S128 .f32) : FVec Ideal S64x128 .f32 :=
  subf (refShift g W1 b1 W2 b2) (broadcastInDim S64x128 ![0, 1] bcast_S64x1_S64x128_0_1 (Host.log (broadcastInDim S64x1 ![0] bcast_S64_S64x1_0 (Host.reduceAdd (Host.exp (refShift g W1 b1 W2 b2)) (constant S_ .f32 0x00000000#32) reducesTo_S64x128_S64_d1 h_S_))))

/-- The shape fact that names the index a row reduction reads. -/
private theorem reduces_row : S64x128.Reduces [1] S64 := by decide

/-- A bias broadcast to a row and then down the rows, at (n, q), is the bias' entry q. -/
private theorem hBias_apply (b : FVec Ideal S128 .f32) (n : Fin 64) (q : Fin 128) :
    broadcastInDim S64x128 (![0, 1] : Fin 2 → Fin 2) bcast_S1x128_S64x128_0_1 (broadcastInDim S1x128 (![1] : Fin 1 → Fin 2) bcast_S128_S1x128_1 b) (ix2 n q)
      = b (ix1 q) := by
  refine (broadcastInDim_apply _ bcast_S1x128_S64x128_0_1 _ (ix2 n q) (ix2 (0 : Fin 1) q) (fun a => match a with
    | ⟨0, _⟩ => by show 0 = if (1 : Nat) = 1 then 0 else n.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- The splat of the float zero, at any entry. -/
private theorem hZero_apply (n : Fin 64) (q : Fin 128) :
    broadcastInDim S64x128 (![] : Fin 0 → Fin 2) bcast_S_S64x128 (constant (F := Ideal) S_ .f32 0x00000000#32) (ix2 n q)
      = Ideal.ofBits .f32 0x00000000#32 :=
  broadcastInDim_apply _ bcast_S_S64x128 _ (ix2 n q) ix0 (fun a => a.elim0)

/-- The splat of the float −∞ over the 64 rows, at any row. -/
private theorem hNegInf_apply (n : Fin 64) :
    broadcastInDim S64 (![] : Fin 0 → Fin 1) bcast_S_S64 (constant (F := Ideal) S_ .f32 0xFF800000#32) (ix1 n)
      = Ideal.ofBits .f32 0xFF800000#32 :=
  broadcastInDim_apply _ bcast_S_S64 _ (ix1 n) ix0 (fun a => a.elim0)

/-- The host's 64×128 by 128×128 product at (n, q). -/
private theorem hDot_apply (A : FVec Ideal S64x128 .f32) (B : FVec Ideal S128x128 .f32)
    (n : Fin 64) (q : Fin 128) :
    Host.dotGeneral dot_S64x128_S128x128_S64x128_1_0_0_1_n_n none A B (ix2 n q) = ∑ k : Fin 128, A (ix2 n k) * B (ix2 k q) :=
  Cert.LibHostDot.dotGeneral_plain_apply' dot_S64x128_S128x128_S64x128_1_0_0_1_n_n
    dot_S64x128_S128x128_S64x128_1_0_0_1_n_n_wf rfl none A B n q

/-- A vector of 64 entries broadcast to a column, at (n, 0), is entry n. -/
private theorem hCol1_apply (c : FVec Ideal S64 .f32) (n : Fin 64) :
    broadcastInDim S64x1 (![0] : Fin 1 → Fin 2) bcast_S64_S64x1_0 c (ix2 n (0 : Fin 1)) = c (ix1 n) :=
  broadcastInDim_apply _ bcast_S64_S64x1_0 c (ix2 n (0 : Fin 1)) (ix1 n) (fun a => match a with
    | ⟨0, _⟩ => by show n.val = if (64 : Nat) = 1 then 0 else n.val; rw [if_neg (by decide)])

/-- A column broadcast along the rows, at (n, q), is the column's entry (n, 0). -/
private theorem hCol2_apply (c : FVec Ideal S64x1 .f32) (n : Fin 64) (q : Fin 128) :
    broadcastInDim S64x128 (![0, 1] : Fin 2 → Fin 2) bcast_S64x1_S64x128_0_1 c (ix2 n q) = c (ix2 n (0 : Fin 1)) :=
  broadcastInDim_apply _ bcast_S64x1_S64x128_0_1 c (ix2 n q) (ix2 n (0 : Fin 1)) (fun a => match a with
    | ⟨0, _⟩ => by show n.val = if (64 : Nat) = 1 then 0 else n.val; rw [if_neg (by decide)]
    | ⟨1, _⟩ => by show 0 = if (1 : Nat) = 1 then 0 else q.val; rw [if_pos rfl])

/-- The host's reduction with a maximum body from −∞ over a row, at row n, is the row's maximum. -/
private theorem hRowMax_apply (x : FVec Ideal S64x128 .f32) (n : Fin 64) :
    Host.reduce FloatOps.maximumf x (constant (F := Ideal) S_ .f32 0xFF800000#32) reducesTo_S64x128_S64_d1 h_S_ (ix1 n)
      = rowMax (fun k => x (ix2 n k)) := by
  refine (Host.reduce_eq_fold_single FloatOps.maximumf x _ reducesTo_S64x128_S64_d1 reduces_row h_S_ (ix1 n)).trans ?_
  exact congrArg (fun f => (Finset.univ : Finset (Fin 128)).fold max (Ideal.ofBits .f32 0xFF800000#32) f)
    (funext fun k => congrArg x (Cert.LibKeepdims.lift_row reduces_row n k))

/-- The host's sum over a row added to the float zero, at row n, is the row's sum. -/
private theorem hRowSum_apply (x : FVec Ideal S64x128 .f32) (n : Fin 64) :
    Host.reduceAdd x (constant (F := Ideal) S_ .f32 0x00000000#32) reducesTo_S64x128_S64_d1 h_S_ (ix1 n)
      = ∑ k : Fin 128, x (ix2 n k) := by
  refine (Ideal.hostReduceAdd_single reducesTo_S64x128_S64_d1 reduces_row x _ (ix1 n)).trans ?_
  show Ideal.ofBits .f32 0x00000000#32 + ∑ k : Fin 128, x (reduces_row.lift (ix1 n) k) = _
  rw [Ideal.ofBits_zero_f32, zero_add]
  exact Finset.sum_congr rfl fun k _ => congrArg x (Cert.LibKeepdims.lift_row reduces_row n k)

/-- Entry (n, q) of the host's logits. -/
private theorem refLogits_apply (g : FVec Ideal S64x128 .f32) (W1 : FVec Ideal S128x128 .f32) (b1 : FVec Ideal S128 .f32)
    (W2 : FVec Ideal S128x128 .f32) (b2 : FVec Ideal S128 .f32) (n : Fin 64) (q : Fin 128) :
    refLogits g W1 b1 W2 b2 (ix2 n q)
      = logitRow (fun j => g (ix2 n j)) (fun j k => W1 (ix2 j k)) (fun k => b1 (ix1 k))
          (fun k q => W2 (ix2 k q)) (fun q => b2 (ix1 q)) q := by
  unfold refLogits logitRow
  simp only [maximumf_apply, addf_apply, hDot_apply, hBias_apply, hZero_apply]

/-- Entry (n, q) of the host's shifted logits. -/
private theorem refShift_apply (g : FVec Ideal S64x128 .f32) (W1 : FVec Ideal S128x128 .f32) (b1 : FVec Ideal S128 .f32)
    (W2 : FVec Ideal S128x128 .f32) (b2 : FVec Ideal S128 .f32) (n : Fin 64) (q : Fin 128) :
    refShift g W1 b1 W2 b2 (ix2 n q)
      = refLogits g W1 b1 W2 b2 (ix2 n q) - rowMax (fun k => refLogits g W1 b1 W2 b2 (ix2 n k)) := by
  unfold refShift
  simp only [subf_apply, hCol2_apply, hCol1_apply, maximumf_apply, hNegInf_apply, hRowMax_apply, negInf_max]

/-- Entry (n, d) of the host's log-softmax. -/
private theorem refHead_apply (g : FVec Ideal S64x128 .f32) (W1 : FVec Ideal S128x128 .f32) (b1 : FVec Ideal S128 .f32)
    (W2 : FVec Ideal S128x128 .f32) (b2 : FVec Ideal S128 .f32) (n : Fin 64) (d : Fin 128) :
    refHead g W1 b1 W2 b2 (ix2 n d)
      = lsmRow (fun q => logitRow (fun j => g (ix2 n j)) (fun j k => W1 (ix2 j k)) (fun k => b1 (ix1 k))
          (fun k q => W2 (ix2 k q)) (fun q => b2 (ix1 q)) q) d := by
  unfold refHead lsmRow
  simp only [subf_apply, hCol2_apply, hlog_apply, hCol1_apply, hRowSum_apply, hexp_apply, refShift_apply, refLogits_apply]

/-- The reference's last stage is the host's head of the pooled features: the stage definitions unfold to it. -/
theorem val_main_v127_eq_refHead (x0 : (⟨S50000x2, .f32⟩ : BufTy).Contents (Elt Ideal)) (x1 : (⟨S2x800000, .i32⟩ : BufTy).Contents (Elt Ideal)) (x2 : (⟨S50000, .i32⟩ : BufTy).Contents (Elt Ideal)) (x3 : (⟨S5000, .i32⟩ : BufTy).Contents (Elt Ideal)) (x4 : (⟨S2x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S3x128x128, .f32⟩ : BufTy).Contents (Elt Ideal)) (x9 : (⟨S3x128, .f32⟩ : BufTy).Contents (Elt Ideal)) (x10 : (⟨S3x128x128, .f32⟩ : BufTy).Contents (Elt Ideal)) (x11 : (⟨S3x128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) :
    Cert.ReferenceIdeal.ReadP.val_main_v127 (F := Ideal) x0 x1 x2 x3 x4 x5 x6 x7 x8 x9 x10 x11 x12 x13 x14 x15
      = refHead (Cert.ReferenceIdeal.ReadP.val_main_v117 (F := Ideal) x0 x1 x2 x3 x4 x5 x6 x7 x8 x9 x10 x11) x12 x13 x14 x15 := by
  unfold Cert.ReferenceIdeal.ReadP.val_main_v127 Cert.ReferenceIdeal.ReadP.val_main_call9_v10 Cert.ReferenceIdeal.ReadP.val_main_call9_v9
    Cert.ReferenceIdeal.ReadP.val_main_call9_v8 Cert.ReferenceIdeal.ReadP.val_main_call9_v7 Cert.ReferenceIdeal.ReadP.val_main_call9_cst_1
    Cert.ReferenceIdeal.ReadP.val_main_call9_v6 Cert.ReferenceIdeal.ReadP.val_main_call9_v5 Cert.ReferenceIdeal.ReadP.val_main_call9_v4
    Cert.ReferenceIdeal.ReadP.val_main_call9_v3 Cert.ReferenceIdeal.ReadP.val_main_call9_v2 Cert.ReferenceIdeal.ReadP.val_main_call9_v1
    Cert.ReferenceIdeal.ReadP.val_main_call9_cst_0 Cert.ReferenceIdeal.ReadP.val_main_call9_v0 Cert.ReferenceIdeal.ReadP.val_main_call9_cst
    Cert.ReferenceIdeal.ReadP.val_main_v126 Cert.ReferenceIdeal.ReadP.val_main_v125 Cert.ReferenceIdeal.ReadP.val_main_v124
    Cert.ReferenceIdeal.ReadP.val_main_v123 Cert.ReferenceIdeal.ReadP.val_main_v122 Cert.ReferenceIdeal.ReadP.val_main_call8_v0
    Cert.ReferenceIdeal.ReadP.val_main_call8_cst Cert.ReferenceIdeal.ReadP.val_main_v121 Cert.ReferenceIdeal.ReadP.val_main_v120
    Cert.ReferenceIdeal.ReadP.val_main_v119 Cert.ReferenceIdeal.ReadP.val_main_v118 refHead refShift refLogits
  rfl

end Host

/-! ## The two heads agree -/

/-- The kernel's last region stores the host's head of the same pooled features, the bias rows being the biases. -/
theorem k4_pay1_eq_refHead (g : FVec Ideal Cert.KernelIdeal.S64x128 .f32) (W1 W2 : FVec Ideal Cert.KernelIdeal.S128x128 .f32)
    (b1r b2r : FVec Ideal Cert.KernelIdeal.S1x128 .f32) (b1 b2 : FVec Ideal Cert.KernelIdeal.S128 .f32)
    (hb1 : ∀ k : Fin 128, b1r (ix2 (0 : Fin 1) k) = b1 (ix1 k)) (hb2 : ∀ k : Fin 128, b2r (ix2 (0 : Fin 1) k) = b2 (ix1 k)) :
    Cert.KernelIdeal.Gen.k4_pay1 (F := Ideal) g W1 b1r W2 b2r = refHead g W1 b1 W2 b2 := by
  funext i
  obtain ⟨n, d, rfl⟩ : ∃ (n : Fin 64) (d : Fin 128), i = ix2 n d := ⟨i 0, i 1, eq_ix2 i⟩
  have e1 : (fun k : Fin 128 => b1r (ix2 (0 : Fin 1) k)) = fun k => b1 (ix1 k) := funext hb1
  have e2 : (fun k : Fin 128 => b2r (ix2 (0 : Fin 1) k)) = fun k => b2 (ix1 k) := funext hb2
  refine (k4_pay1_apply g W1 W2 b1r b2r n d).trans ?_
  rw [e1, e2]
  exact (refHead_apply g W1 b1 W2 b2 n d).symm

end Cert.Bridge

end
-- ==== Proof.Region4.lean ====
/-
  Region 4 of the kernel: the classifier head on the pooled graph features, one grid point, every window its whole
  array.  The body reads the pooled features, the two weight matrices and the two bias rows, and stores the row-wise
  log-softmax of the logits; the output array ends as the host's head of the arrays the region was entered with.
-/
import proofs.«151027_j4887672783293_2_alg».proof.Proof.Gen.KernelIdeal.Frame
import proofs.«151027_j4887672783293_2_alg».proof.Proof.Head

set_option maxRecDepth 16384

noncomputable section

namespace Cert.Bridge.R4

open Idealize.ShloMosaic Idealize.ShloMosaic.ValueIdx Idealize.ShloMosaic.TcCoe Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Every window of the one grid point sits at block (0, 0). -/
theorem idx_facts : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

theorem blk_g (c : Dev nD) (t : Fin cfg4.N) : iblk4 V c 0 t = V c main_v85 := by
  obtain ⟨e0, e1, -⟩ := idx_facts t
  funext y
  show V c main_v85 (((cfg4.win 0).blk t).view.emb y) = V c main_v85 y
  refine congrArg _ (funext fun a => Fin.ext ?_)
  match a with
  | ⟨0, _⟩ => show win4_0.index t (0 : Fin 2) * 64 + 1 * (y 0).val = (y 0).val; omega
  | ⟨1, _⟩ => show win4_0.index t (1 : Fin 2) * 128 + 1 * (y 1).val = (y 1).val; omega

theorem blk_W1 (c : Dev nD) (t : Fin cfg4.N) : iblk4 V c 1 t = V c main_arg12 := by
  obtain ⟨-, -, e0, e1, -⟩ := idx_facts t
  funext y
  show V c main_arg12 (((cfg4.win 1).blk t).view.emb y) = V c main_arg12 y
  refine congrArg _ (funext fun a => Fin.ext ?_)
  match a with
  | ⟨0, _⟩ => show win4_1.index t (0 : Fin 2) * 128 + 1 * (y 0).val = (y 0).val; omega
  | ⟨1, _⟩ => show win4_1.index t (1 : Fin 2) * 128 + 1 * (y 1).val = (y 1).val; omega

theorem blk_b1 (c : Dev nD) (t : Fin cfg4.N) : iblk4 V c 2 t = V c main_v86 := by
  obtain ⟨-, -, -, -, e0, e1, -⟩ := idx_facts t
  funext y
  show V c main_v86 (((cfg4.win 2).blk t).view.emb y) = V c main_v86 y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 128 + 1 * (y 1).val = (y 1).val; omega

theorem blk_W2 (c : Dev nD) (t : Fin cfg4.N) : iblk4 V c 3 t = V c main_arg14 := by
  obtain ⟨-, -, -, -, -, -, e0, e1, -⟩ := idx_facts t
  funext y
  show V c main_arg14 (((cfg4.win 3).blk t).view.emb y) = V c main_arg14 y
  refine congrArg _ (funext fun a => Fin.ext ?_)
  match a with
  | ⟨0, _⟩ => show win4_3.index t (0 : Fin 2) * 128 + 1 * (y 0).val = (y 0).val; omega
  | ⟨1, _⟩ => show win4_3.index t (1 : Fin 2) * 128 + 1 * (y 1).val = (y 1).val; omega

theorem blk_b2 (c : Dev nD) (t : Fin cfg4.N) : iblk4 V c 4 t = V c main_v87 := by
  obtain ⟨-, -, -, -, -, -, -, -, e0, e1, -⟩ := idx_facts t
  funext y
  show V c main_v87 (((cfg4.win 4).blk t).view.emb y) = V c main_v87 y
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 128 + 1 * (y 1).val = (y 1).val; omega

/-- An entry of the one output block sits at the same index of the output array. -/
theorem emb_out (t : Fin cfg4.N) (y : S64x128.Idx) : ((cfg4.win 5).blk t).view.emb y = y := by
  obtain ⟨-, -, -, -, -, -, -, -, -, -, e0, e1⟩ := idx_facts t
  refine funext fun a => Fin.ext ?_
  match a with
  | ⟨0, _⟩ => show win4_5.index t (0 : Fin 2) * 64 + 1 * (y 0).val = (y 0).val; omega
  | ⟨1, _⟩ => show win4_5.index t (1 : Fin 2) * 128 + 1 * (y 1).val = (y 1).val; omega

/-- WHAT THE GRID POINT WRITES BACK is the host's head of the arrays the region was entered with; `b1`, `b2` are the
    bias vectors whose rows the region's bias windows hold. -/
theorem flushed_eq (c : Dev nD) (b1 b2 : FVec Ideal S128 .f32)
    (hb1 : ∀ k : Fin 128, V c main_v86 (ix2 (0 : Fin 1) k) = b1 (ix1 k))
    (hb2 : ∀ k : Fin 128, V c main_v87 (ix2 (0 : Fin 1) k) = b2 (ix1 k)) (t : Fin cfg4.N) :
    (dat4 V c).flushed 5 t = ((cfg4.win 5).blk t).view.read (Elt Ideal)
      (refHead (V c main_v85) (V c main_arg12) b1 (V c main_arg14) b2) := by
  show (cfg4.win 5).cut (grid4.coords t) ((dat4 V c).after 5 t) = _
  rw [after4_5]
  unfold out4_5
  rw [View.canon_unit_zero hz]
  simp only [View.ld_unit_zero (S := S64x128) hz, View.ld_unit_zero (S := S128x128) hz, View.ld_unit_zero (S := S1x128) hz]
  rw [blk_g V c t, blk_W1 V c t, blk_b1 V c t, blk_W2 V c t, blk_b2 V c t]
  rw [k4_pay1_eq_refHead (V c main_v85) (V c main_arg12) (V c main_arg14) (V c main_v86) (V c main_v87) b1 b2 hb1 hb2]
  funext y
  show refHead (V c main_v85) (V c main_arg12) b1 (V c main_arg14) b2 y
    = refHead (V c main_v85) (V c main_arg12) b1 (V c main_arg14) b2 (((cfg4.win 5).blk t).view.emb y)
  rw [emb_out t y]

/-- An index of the output array is in the block iff each coordinate lies in the block's range. -/
theorem mem_blk (t : Fin cfg4.N) (i : S64x128.Idx) :
    i ∈ ((cfg4.win 5).blk t).view.set ↔ ∀ a : Fin 2, win4_5.index t a * S64x128.size a ≤ (i a).val ∧ (i a).val < win4_5.index t a * S64x128.size a + S64x128.size a := by
  show i ∈ ((View.whole main_v88).slice (win4_5.rect t)).set ↔ _
  rw [View.set_slice_whole, Rect.mem_set_unit]
  exact Iff.rfl

/-- The one block is the whole array. -/
theorem cover (i : S64x128.Idx) :
    ∃ t : Fin cfg4.N, (cfg4.win 5).flush t = true ∧ i ∈ ((cfg4.win 5).blk t).view.set := by
  have hi0 : (i 0).val < 64 := (i 0).isLt
  have hi1 : (i 1).val < 128 := (i 1).isLt
  obtain ⟨-, -, -, -, -, -, -, -, -, -, e0, e1⟩ := idx_facts t4_0
  refine ⟨t4_0, flush4_5 t4_0, ?_⟩
  rw [mem_blk]
  intro a
  match a with
  | ⟨0, _⟩ => show win4_5.index t4_0 (0 : Fin 2) * 64 ≤ (i 0).val ∧ (i 0).val < win4_5.index t4_0 (0 : Fin 2) * 64 + 64; omega
  | ⟨1, _⟩ => show win4_5.index t4_0 (1 : Fin 2) * 128 ≤ (i 1).val ∧ (i 1).val < win4_5.index t4_0 (1 : Fin 2) * 128 + 128; omega

/-- THE OUTPUT ARRAY after the region: the host's head of the arrays the region was entered with. -/
theorem final (c : Dev nD) (b1 b2 : FVec Ideal S128 .f32)
    (hb1 : ∀ k : Fin 128, V c main_v86 (ix2 (0 : Fin 1) k) = b1 (ix1 k))
    (hb2 : ∀ k : Fin 128, V c main_v87 (ix2 (0 : Fin 1) k) = b2 (ix1 k)) :
    (dat4 V c).arrAt 5 cfg4.N = refHead (V c main_v85) (V c main_arg12) b1 (V c main_arg14) b2 :=
  (dat4 V c).arrAt_eq_of_cover 5 _ (fun t _ => flushed_eq V c b1 b2 hb1 hb2 t) (cover)

end Cert.Bridge.R4

end
-- ==== Proof.RefStages.lean ====
/-
  The reference's four graph-convolution layers as the host's perceptron of the previous stage.  Each layer of the
  reference is  relu (relu ((h + agg) · Wa + ba) · Wb + bb)  where h is the previous layer's output, agg its neighbour
  sums, and the weights are the layer's slices of the stacked weight arrays; these equations only fold the reference's
  stage definitions into that one function.
-/
import proofs.«151027_j4887672783293_2_alg».proof.Proof.ReadPatched
import proofs.«151027_j4887672783293_2_alg».proof.Proof.HostMlp

noncomputable section

namespace Cert.Bridge

open Idealize.ShloMosaic Cert.ReferenceIdeal Cert.ReferenceIdeal.Gen Cert.ReferenceIdeal.ReadP

variable (x0 : (⟨S50000x2, .f32⟩ : BufTy).Contents (Elt Ideal))
  (x1 : (⟨S2x800000, .i32⟩ : BufTy).Contents (Elt Ideal))
  (x4 : (⟨S2x128, .f32⟩ : BufTy).Contents (Elt Ideal))
  (x5 : (⟨S128, .f32⟩ : BufTy).Contents (Elt Ideal))
  (x6 : (⟨S128x128, .f32⟩ : BufTy).Contents (Elt Ideal))
  (x7 : (⟨S128, .f32⟩ : BufTy).Contents (Elt Ideal))
  (x8 : (⟨S3x128x128, .f32⟩ : BufTy).Contents (Elt Ideal))
  (x9 : (⟨S3x128, .f32⟩ : BufTy).Contents (Elt Ideal))
  (x10 : (⟨S3x128x128, .f32⟩ : BufTy).Contents (Elt Ideal))
  (x11 : (⟨S3x128, .f32⟩ : BufTy).Contents (Elt Ideal))

/-- Layer 1: from the input features and their neighbour sums. -/
theorem layer1_eq : val_main_v24 (F := Ideal) x0 x1 x4 x5 x6 x7
    = hostMlp2 x0 (val_main_v13 (F := Ideal) x0 x1) x4 x5 x6 x7 := rfl

/-- Layer 2: from layer 1's output and its neighbour sums, with slice 0 of the stacked weights. -/
theorem layer2_eq : val_main_v53 (F := Ideal) x0 x1 x4 x5 x6 x7 x8 x9 x10 x11
    = hostMlp128 (val_main_v24 (F := Ideal) x0 x1 x4 x5 x6 x7) (val_main_v42 (F := Ideal) x0 x1 x4 x5 x6 x7)
        (val_main_v26 (F := Ideal) x8) (val_main_v28 (F := Ideal) x9) (val_main_v30 (F := Ideal) x10) (val_main_v32 (F := Ideal) x11) := rfl

/-- Layer 3: from layer 2's output, with slice 1 of the stacked weights. -/
theorem layer3_eq : val_main_v82 (F := Ideal) x0 x1 x4 x5 x6 x7 x8 x9 x10 x11
    = hostMlp128 (val_main_v53 (F := Ideal) x0 x1 x4 x5 x6 x7 x8 x9 x10 x11) (val_main_v71 (F := Ideal) x0 x1 x4 x5 x6 x7 x8 x9 x10 x11)
        (val_main_v55 (F := Ideal) x8) (val_main_v57 (F := Ideal) x9) (val_main_v59 (F := Ideal) x10) (val_main_v61 (F := Ideal) x11) := rfl

/-- Layer 4: from layer 3's output, with slice 2 of the stacked weights. -/
theorem layer4_eq : val_main_v111 (F := Ideal) x0 x1 x4 x5 x6 x7 x8 x9 x10 x11
    = hostMlp128 (val_main_v82 (F := Ideal) x0 x1 x4 x5 x6 x7 x8 x9 x10 x11) (val_main_v100 (F := Ideal) x0 x1 x4 x5 x6 x7 x8 x9 x10 x11)
        (val_main_v84 (F := Ideal) x8) (val_main_v86 (F := Ideal) x9) (val_main_v88 (F := Ideal) x10) (val_main_v90 (F := Ideal) x11) := rfl

end Cert.Bridge

end
-- ==== Proof.KernelValue.lean ====
/-
  The kernel program's result as the reference's function of the arguments.  The program runs, in order: a stretch of
  host operations (the source and destination rows of the edges, the first neighbour sums, the bias rows), region 0
  (layer 1), then three times a stretch (the layer's weight slices, the gather of the previous output along the source
  rows and its scatter-add along the destination rows) and a region (layers 2 to 4), then the two pooling scatter-adds
  and the head (region 4).  Each stretch is the reference's own operations on the same values, and each region leaves
  the host's perceptron (or head) of the arrays it was entered with; so, boundary by boundary, the buffers the next
  step reads hold the reference's stages, and the result buffer ends at the reference's last stage.
-/
import proofs.«151027_j4887672783293_2_alg».proof.Proof.Gen.KernelIdeal.Frame
import proofs.«151027_j4887672783293_2_alg».proof.Proof.Region0
import proofs.«151027_j4887672783293_2_alg».proof.Proof.Region1
import proofs.«151027_j4887672783293_2_alg».proof.Proof.Region2
import proofs.«151027_j4887672783293_2_alg».proof.Proof.Region3
import proofs.«151027_j4887672783293_2_alg».proof.Proof.Region4
import proofs.«151027_j4887672783293_2_alg».proof.Proof.RefStages
import proofs.«151027_j4887672783293_2_alg».proof.Proof.Head
import proofs.«151027_j4887672783293_2_alg».proof.Proof.LibRowOps
import Idealize.ShloMosaic.Lib.StableHlo.Run

set_option maxRecDepth 16384

noncomputable section

namespace Cert.Bridge.KV

open Idealize.ShloMosaic Idealize.ShloMosaic.TcCoe Idealize.SL.Sem Idealize.ShloMosaic.StableHlo Idealize.ShloMosaic.ValueIdx
open Cert.KernelIdeal Cert.KernelIdeal.Gen
open Cert.ReferenceIdeal.ReadP

/-- A stretch of host operations keeps a buffer none of its operations writes: the goal "no operation of the stretch
    writes it", over the printed list. -/
macro "host_keep" : tactic => `(tactic| (
  refine List.forall_iff_forall_mem.mp ?_
  simp only [hostOps0, hostOps1, hostOps2, hostOps3, hostOps4, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

/-- The launch contents of a buffer. -/
abbrev arg (b : Ref sig .tc) : Buf (Elt Ideal) ((c : Thread nD τ).loc b) := m ((c : Thread nD τ).loc b)

/-! ## What the boundaries keep

    `W1` is the memory after the first stretch, `W2` after region 0, `W3` after the second stretch, and so on to `W10`
    after region 4.  A region changes only its own arrays and a stretch only the buffers its operations write. -/

theorem to2 (b : Ref sig .tc) (h0 : ∀ w, Pipeline.arrRef spec0 w ≠ b) :
    W2 m ρ c (Proc.devRef .tc b) = W1 m ρ c (Proc.devRef .tc b) := W2_of_ne m ρ c b h0

theorem to4 (b : Ref sig .tc) (h0 : ∀ w, Pipeline.arrRef spec0 w ≠ b) (h1 : ∀ w, Pipeline.arrRef spec1 w ≠ b)
    (k1 : ∀ op ∈ (hostOps1 : List (HloOp τ sig (Elt Ideal))), Proc.devRef .tc b ∉ op.writes) :
    W4 m ρ c (Proc.devRef .tc b) = W1 m ρ c (Proc.devRef .tc b) :=
  (W4_of_ne m ρ c b h1).trans ((StableHlo.after_of_forall_not_mem _ _ k1).trans (to2 m ρ c b h0))

theorem to6 (b : Ref sig .tc) (h0 : ∀ w, Pipeline.arrRef spec0 w ≠ b) (h1 : ∀ w, Pipeline.arrRef spec1 w ≠ b)
    (h2 : ∀ w, Pipeline.arrRef spec2 w ≠ b)
    (k1 : ∀ op ∈ (hostOps1 : List (HloOp τ sig (Elt Ideal))), Proc.devRef .tc b ∉ op.writes)
    (k2 : ∀ op ∈ (hostOps2 : List (HloOp τ sig (Elt Ideal))), Proc.devRef .tc b ∉ op.writes) :
    W6 m ρ c (Proc.devRef .tc b) = W1 m ρ c (Proc.devRef .tc b) :=
  (W6_of_ne m ρ c b h2).trans ((StableHlo.after_of_forall_not_mem _ _ k2).trans (to4 m ρ c b h0 h1 k1))

theorem to8 (b : Ref sig .tc) (h0 : ∀ w, Pipeline.arrRef spec0 w ≠ b) (h1 : ∀ w, Pipeline.arrRef spec1 w ≠ b)
    (h2 : ∀ w, Pipeline.arrRef spec2 w ≠ b) (h3 : ∀ w, Pipeline.arrRef spec3 w ≠ b)
    (k1 : ∀ op ∈ (hostOps1 : List (HloOp τ sig (Elt Ideal))), Proc.devRef .tc b ∉ op.writes)
    (k2 : ∀ op ∈ (hostOps2 : List (HloOp τ sig (Elt Ideal))), Proc.devRef .tc b ∉ op.writes)
    (k3 : ∀ op ∈ (hostOps3 : List (HloOp τ sig (Elt Ideal))), Proc.devRef .tc b ∉ op.writes) :
    W8 m ρ c (Proc.devRef .tc b) = W1 m ρ c (Proc.devRef .tc b) :=
  (W8_of_ne m ρ c b h3).trans ((StableHlo.after_of_forall_not_mem _ _ k3).trans (to6 m ρ c b h0 h1 h2 k1 k2))

theorem to9 (b : Ref sig .tc) (h0 : ∀ w, Pipeline.arrRef spec0 w ≠ b) (h1 : ∀ w, Pipeline.arrRef spec1 w ≠ b)
    (h2 : ∀ w, Pipeline.arrRef spec2 w ≠ b) (h3 : ∀ w, Pipeline.arrRef spec3 w ≠ b)
    (k1 : ∀ op ∈ (hostOps1 : List (HloOp τ sig (Elt Ideal))), Proc.devRef .tc b ∉ op.writes)
    (k2 : ∀ op ∈ (hostOps2 : List (HloOp τ sig (Elt Ideal))), Proc.devRef .tc b ∉ op.writes)
    (k3 : ∀ op ∈ (hostOps3 : List (HloOp τ sig (Elt Ideal))), Proc.devRef .tc b ∉ op.writes)
    (k4 : ∀ op ∈ (hostOps4 : List (HloOp τ sig (Elt Ideal))), Proc.devRef .tc b ∉ op.writes) :
    W9 m ρ c (Proc.devRef .tc b) = W1 m ρ c (Proc.devRef .tc b) :=
  (StableHlo.after_of_forall_not_mem _ _ k4).trans (to8 m ρ c b h0 h1 h2 h3 k1 k2 k3)

/-! ## After the first stretch -/

/-- An argument the first stretch does not write holds its launch contents. -/
theorem w1_arg (b : Ref sig .tc)
    (k0 : ∀ op ∈ (hostOps0 : List (HloOp τ sig (Elt Ideal))), Proc.devRef .tc b ∉ op.writes) :
    W1 m ρ c (Proc.devRef .tc b) = arg m c b :=
  (StableHlo.after_of_forall_not_mem _ _ k0).trans rfl

/-- The edges' source rows. -/
theorem w1_v1 : W1 m ρ c (Proc.devRef .tc main_v1) = val_main_v1 (F := Ideal) (arg m c main_arg1) := by
  show StableHlo.after hostOps0 (W0 m ρ c) (Proc.devRef .tc main_v1) = _
  after_results
  rfl

/-- The edges' destination rows. -/
theorem w1_v3 : W1 m ρ c (Proc.devRef .tc main_v3) = val_main_v3 (F := Ideal) (arg m c main_arg1) := by
  show StableHlo.after hostOps0 (W0 m ρ c) (Proc.devRef .tc main_v3) = _
  after_results
  rfl

/-! ## Region 0: the arrays it is entered with, and what it leaves -/

theorem e0_h : V1 m ρ c main_arg0 = arg m c main_arg0 := w1_arg m ρ c main_arg0 (by host_keep)
theorem e0_Wa : V1 m ρ c main_arg4 = arg m c main_arg4 := w1_arg m ρ c main_arg4 (by host_keep)
theorem e0_Wb : V1 m ρ c main_arg6 = arg m c main_arg6 := w1_arg m ρ c main_arg6 (by host_keep)

/-- The first neighbour sums: the scatter-add of the gathered input rows. -/
theorem e0_agg : V1 m ρ c main_v13 = val_main_v13 (F := Ideal) (arg m c main_arg0) (arg m c main_arg1) := by
  show StableHlo.after hostOps0 (W0 m ρ c) (Proc.devRef .tc main_v13) = _
  after_results
  rfl

theorem e0_ba (k : Fin 128) : V1 m ρ c main_v14 (ix2 (0 : Fin 1) k) = arg m c main_arg5 (ix1 k) := by
  have e : V1 m ρ c main_v14 = shapeCast S1x128 (arg m c main_arg5) shapeCasts_S128_S1x128 := by
    show StableHlo.after hostOps0 (W0 m ρ c) (Proc.devRef .tc main_v14) = _
    after_results
    rfl
  rw [e]
  exact Cert.KernelBody.shapeCast_row_apply _ shapeCasts_S128_S1x128 k

theorem e0_bb (k : Fin 128) : V1 m ρ c main_v15 (ix2 (0 : Fin 1) k) = arg m c main_arg7 (ix1 k) := by
  have e : V1 m ρ c main_v15 = shapeCast S1x128 (arg m c main_arg7) shapeCasts_S128_S1x128 := by
    show StableHlo.after hostOps0 (W0 m ρ c) (Proc.devRef .tc main_v15) = _
    after_results
    rfl
  rw [e]
  exact Cert.KernelBody.shapeCast_row_apply _ shapeCasts_S128_S1x128 k

/-- Region 0's output array is the reference's layer 1. -/
theorem X1 : W2 m ρ c (Proc.devRef .tc main_v16) = val_main_v24 (F := Ideal) (arg m c main_arg0) (arg m c main_arg1) (arg m c main_arg4) (arg m c main_arg5) (arg m c main_arg6) (arg m c main_arg7) := by
  refine (W2_arr m ρ c 6).trans
    ((R0.final (V1 m ρ) c (arg m c main_arg5) (arg m c main_arg7) (e0_ba m ρ c) (e0_bb m ρ c)).trans ?_)
  rw [e0_h m ρ c, e0_agg m ρ c, e0_Wa m ρ c, e0_Wb m ρ c]
  exact (layer1_eq _ _ _ _ _ _).symm

/-! ## Region 1: the arrays it is entered with, and what it leaves -/

theorem e1_h : V3 m ρ c main_v16 = val_main_v24 (F := Ideal) (arg m c main_arg0) (arg m c main_arg1) (arg m c main_arg4) (arg m c main_arg5) (arg m c main_arg6) (arg m c main_arg7) :=
  (StableHlo.after_of_forall_not_mem (b := Proc.devRef .tc main_v16) _ _ (by host_keep)).trans (X1 m ρ c)

theorem f2_v1 : W2 m ρ c (Proc.devRef .tc main_v1) = val_main_v1 (F := Ideal) (arg m c main_arg1) :=
  (to2 m ρ c main_v1 (by decide) ).trans (w1_v1 m ρ c)
theorem f2_v3 : W2 m ρ c (Proc.devRef .tc main_v3) = val_main_v3 (F := Ideal) (arg m c main_arg1) :=
  (to2 m ρ c main_v3 (by decide) ).trans (w1_v3 m ρ c)
theorem f2_arg8 : W2 m ρ c (Proc.devRef .tc main_arg8) = arg m c main_arg8 :=
  (to2 m ρ c main_arg8 (by decide) ).trans (w1_arg m ρ c main_arg8 (by host_keep))
theorem f2_arg9 : W2 m ρ c (Proc.devRef .tc main_arg9) = arg m c main_arg9 :=
  (to2 m ρ c main_arg9 (by decide) ).trans (w1_arg m ρ c main_arg9 (by host_keep))
theorem f2_arg10 : W2 m ρ c (Proc.devRef .tc main_arg10) = arg m c main_arg10 :=
  (to2 m ρ c main_arg10 (by decide) ).trans (w1_arg m ρ c main_arg10 (by host_keep))
theorem f2_arg11 : W2 m ρ c (Proc.devRef .tc main_arg11) = arg m c main_arg11 :=
  (to2 m ρ c main_arg11 (by decide) ).trans (w1_arg m ρ c main_arg11 (by host_keep))

/-- The neighbour sums the region reads: the scatter-add of the gathered rows of the previous layer's output. -/
theorem e1_agg : V3 m ρ c main_v34 = val_main_v42 (F := Ideal) (arg m c main_arg0) (arg m c main_arg1) (arg m c main_arg4) (arg m c main_arg5) (arg m c main_arg6) (arg m c main_arg7) := by
  show StableHlo.after hostOps1 (W2 m ρ c) (Proc.devRef .tc main_v34) = _
  generalize hR : val_main_v42 (F := Ideal) (arg m c main_arg0) (arg m c main_arg1) (arg m c main_arg4) (arg m c main_arg5) (arg m c main_arg6) (arg m c main_arg7) = R
  after_results
  rw [X1 m ρ c, f2_v1 m ρ c, f2_v3 m ρ c, ← hR]
  rfl

theorem e1_Wa : V3 m ρ c main_v18 = val_main_v26 (F := Ideal) (arg m c main_arg8) := by
  show StableHlo.after hostOps1 (W2 m ρ c) (Proc.devRef .tc main_v18) = _
  after_results
  rw [f2_arg8 m ρ c]
  rfl

theorem e1_Wb : V3 m ρ c main_v22 = val_main_v30 (F := Ideal) (arg m c main_arg10) := by
  show StableHlo.after hostOps1 (W2 m ρ c) (Proc.devRef .tc main_v22) = _
  after_results
  rw [f2_arg10 m ρ c]
  rfl

theorem e1_ba (k : Fin 128) : V3 m ρ c main_v35 (ix2 (0 : Fin 1) k) = val_main_v28 (F := Ideal) (arg m c main_arg9) (ix1 k) := by
  have e : V3 m ρ c main_v35 = shapeCast S1x128 (val_main_v28 (F := Ideal) (arg m c main_arg9)) shapeCasts_S128_S1x128 := by
    show StableHlo.after hostOps1 (W2 m ρ c) (Proc.devRef .tc main_v35) = _
    after_results
    rw [f2_arg9 m ρ c]
    rfl
  rw [e]
  exact Cert.KernelBody.shapeCast_row_apply _ shapeCasts_S128_S1x128 k

theorem e1_bb (k : Fin 128) : V3 m ρ c main_v36 (ix2 (0 : Fin 1) k) = val_main_v32 (F := Ideal) (arg m c main_arg11) (ix1 k) := by
  have e : V3 m ρ c main_v36 = shapeCast S1x128 (val_main_v32 (F := Ideal) (arg m c main_arg11)) shapeCasts_S128_S1x128 := by
    show StableHlo.after hostOps1 (W2 m ρ c) (Proc.devRef .tc main_v36) = _
    after_results
    rw [f2_arg11 m ρ c]
    rfl
  rw [e]
  exact Cert.KernelBody.shapeCast_row_apply _ shapeCasts_S128_S1x128 k

/-- Region 1's output array is the reference's layer 2. -/
theorem X2 : W4 m ρ c (Proc.devRef .tc main_v37) = val_main_v53 (F := Ideal) (arg m c main_arg0) (arg m c main_arg1) (arg m c main_arg4) (arg m c main_arg5) (arg m c main_arg6) (arg m c main_arg7) (arg m c main_arg8) (arg m c main_arg9) (arg m c main_arg10) (arg m c main_arg11) := by
  refine (W4_arr m ρ c 6).trans
    ((R1.final (V3 m ρ) c (val_main_v28 (F := Ideal) (arg m c main_arg9)) (val_main_v32 (F := Ideal) (arg m c main_arg11)) (e1_ba m ρ c) (e1_bb m ρ c)).trans ?_)
  rw [e1_h m ρ c, e1_agg m ρ c, e1_Wa m ρ c, e1_Wb m ρ c]
  exact (layer2_eq _ _ _ _ _ _ _ _ _ _).symm

/-! ## Region 2: the arrays it is entered with, and what it leaves -/

theorem e2_h : V5 m ρ c main_v37 = val_main_v53 (F := Ideal) (arg m c main_arg0) (arg m c main_arg1) (arg m c main_arg4) (arg m c main_arg5) (arg m c main_arg6) (arg m c main_arg7) (arg m c main_arg8) (arg m c main_arg9) (arg m c main_arg10) (arg m c main_arg11) :=
  (StableHlo.after_of_forall_not_mem (b := Proc.devRef .tc main_v37) _ _ (by host_keep)).trans (X2 m ρ c)

theorem f4_v1 : W4 m ρ c (Proc.devRef .tc main_v1) = val_main_v1 (F := Ideal) (arg m c main_arg1) :=
  (to4 m ρ c main_v1 (by decide) (by decide) (by host_keep)).trans (w1_v1 m ρ c)
theorem f4_v3 : W4 m ρ c (Proc.devRef .tc main_v3) = val_main_v3 (F := Ideal) (arg m c main_arg1) :=
  (to4 m ρ c main_v3 (by decide) (by decide) (by host_keep)).trans (w1_v3 m ρ c)
theorem f4_arg8 : W4 m ρ c (Proc.devRef .tc main_arg8) = arg m c main_arg8 :=
  (to4 m ρ c main_arg8 (by decide) (by decide) (by host_keep)).trans (w1_arg m ρ c main_arg8 (by host_keep))
theorem f4_arg9 : W4 m ρ c (Proc.devRef .tc main_arg9) = arg m c main_arg9 :=
  (to4 m ρ c main_arg9 (by decide) (by decide) (by host_keep)).trans (w1_arg m ρ c main_arg9 (by host_keep))
theorem f4_arg10 : W4 m ρ c (Proc.devRef .tc main_arg10) = arg m c main_arg10 :=
  (to4 m ρ c main_arg10 (by decide) (by decide) (by host_keep)).trans (w1_arg m ρ c main_arg10 (by host_keep))
theorem f4_arg11 : W4 m ρ c (Proc.devRef .tc main_arg11) = arg m c main_arg11 :=
  (to4 m ρ c main_arg11 (by decide) (by decide) (by host_keep)).trans (w1_arg m ρ c main_arg11 (by host_keep))

/-- The neighbour sums the region reads: the scatter-add of the gathered rows of the previous layer's output. -/
theorem e2_agg : V5 m ρ c main_v55 = val_main_v71 (F := Ideal) (arg m c main_arg0) (arg m c main_arg1) (arg m c main_arg4) (arg m c main_arg5) (arg m c main_arg6) (arg m c main_arg7) (arg m c main_arg8) (arg m c main_arg9) (arg m c main_arg10) (arg m c main_arg11) := by
  show StableHlo.after hostOps2 (W4 m ρ c) (Proc.devRef .tc main_v55) = _
  generalize hR : val_main_v71 (F := Ideal) (arg m c main_arg0) (arg m c main_arg1) (arg m c main_arg4) (arg m c main_arg5) (arg m c main_arg6) (arg m c main_arg7) (arg m c main_arg8) (arg m c main_arg9) (arg m c main_arg10) (arg m c main_arg11) = R
  after_results
  rw [X2 m ρ c, f4_v1 m ρ c, f4_v3 m ρ c, ← hR]
  rfl

theorem e2_Wa : V5 m ρ c main_v39 = val_main_v55 (F := Ideal) (arg m c main_arg8) := by
  show StableHlo.after hostOps2 (W4 m ρ c) (Proc.devRef .tc main_v39) = _
  after_results
  rw [f4_arg8 m ρ c]
  rfl

theorem e2_Wb : V5 m ρ c main_v43 = val_main_v59 (F := Ideal) (arg m c main_arg10) := by
  show StableHlo.after hostOps2 (W4 m ρ c) (Proc.devRef .tc main_v43) = _
  after_results
  rw [f4_arg10 m ρ c]
  rfl

theorem e2_ba (k : Fin 128) : V5 m ρ c main_v56 (ix2 (0 : Fin 1) k) = val_main_v57 (F := Ideal) (arg m c main_arg9) (ix1 k) := by
  have e : V5 m ρ c main_v56 = shapeCast S1x128 (val_main_v57 (F := Ideal) (arg m c main_arg9)) shapeCasts_S128_S1x128 := by
    show StableHlo.after hostOps2 (W4 m ρ c) (Proc.devRef .tc main_v56) = _
    after_results
    rw [f4_arg9 m ρ c]
    rfl
  rw [e]
  exact Cert.KernelBody.shapeCast_row_apply _ shapeCasts_S128_S1x128 k

theorem e2_bb (k : Fin 128) : V5 m ρ c main_v57 (ix2 (0 : Fin 1) k) = val_main_v61 (F := Ideal) (arg m c main_arg11) (ix1 k) := by
  have e : V5 m ρ c main_v57 = shapeCast S1x128 (val_main_v61 (F := Ideal) (arg m c main_arg11)) shapeCasts_S128_S1x128 := by
    show StableHlo.after hostOps2 (W4 m ρ c) (Proc.devRef .tc main_v57) = _
    after_results
    rw [f4_arg11 m ρ c]
    rfl
  rw [e]
  exact Cert.KernelBody.shapeCast_row_apply _ shapeCasts_S128_S1x128 k

/-- Region 2's output array is the reference's layer 3. -/
theorem X3 : W6 m ρ c (Proc.devRef .tc main_v58) = val_main_v82 (F := Ideal) (arg m c main_arg0) (arg m c main_arg1) (arg m c main_arg4) (arg m c main_arg5) (arg m c main_arg6) (arg m c main_arg7) (arg m c main_arg8) (arg m c main_arg9) (arg m c main_arg10) (arg m c main_arg11) := by
  refine (W6_arr m ρ c 6).trans
    ((R2.final (V5 m ρ) c (val_main_v57 (F := Ideal) (arg m c main_arg9)) (val_main_v61 (F := Ideal) (arg m c main_arg11)) (e2_ba m ρ c) (e2_bb m ρ c)).trans ?_)
  rw [e2_h m ρ c, e2_agg m ρ c, e2_Wa m ρ c, e2_Wb m ρ c]
  exact (layer3_eq _ _ _ _ _ _ _ _ _ _).symm

/-! ## Region 3: the arrays it is entered with, and what it leaves -/

theorem e3_h : V7 m ρ c main_v58 = val_main_v82 (F := Ideal) (arg m c main_arg0) (arg m c main_arg1) (arg m c main_arg4) (arg m c main_arg5) (arg m c main_arg6) (arg m c main_arg7) (arg m c main_arg8) (arg m c main_arg9) (arg m c main_arg10) (arg m c main_arg11) :=
  (StableHlo.after_of_forall_not_mem (b := Proc.devRef .tc main_v58) _ _ (by host_keep)).trans (X3 m ρ c)

theorem f6_v1 : W6 m ρ c (Proc.devRef .tc main_v1) = val_main_v1 (F := Ideal) (arg m c main_arg1) :=
  (to6 m ρ c main_v1 (by decide) (by decide) (by decide) (by host_keep) (by host_keep)).trans (w1_v1 m ρ c)
theorem f6_v3 : W6 m ρ c (Proc.devRef .tc main_v3) = val_main_v3 (F := Ideal) (arg m c main_arg1) :=
  (to6 m ρ c main_v3 (by decide) (by decide) (by decide) (by host_keep) (by host_keep)).trans (w1_v3 m ρ c)
theorem f6_arg8 : W6 m ρ c (Proc.devRef .tc main_arg8) = arg m c main_arg8 :=
  (to6 m ρ c main_arg8 (by decide) (by decide) (by decide) (by host_keep) (by host_keep)).trans (w1_arg m ρ c main_arg8 (by host_keep))
theorem f6_arg9 : W6 m ρ c (Proc.devRef .tc main_arg9) = arg m c main_arg9 :=
  (to6 m ρ c main_arg9 (by decide) (by decide) (by decide) (by host_keep) (by host_keep)).trans (w1_arg m ρ c main_arg9 (by host_keep))
theorem f6_arg10 : W6 m ρ c (Proc.devRef .tc main_arg10) = arg m c main_arg10 :=
  (to6 m ρ c main_arg10 (by decide) (by decide) (by decide) (by host_keep) (by host_keep)).trans (w1_arg m ρ c main_arg10 (by host_keep))
theorem f6_arg11 : W6 m ρ c (Proc.devRef .tc main_arg11) = arg m c main_arg11 :=
  (to6 m ρ c main_arg11 (by decide) (by decide) (by decide) (by host_keep) (by host_keep)).trans (w1_arg m ρ c main_arg11 (by host_keep))

/-- The neighbour sums the region reads: the scatter-add of the gathered rows of the previous layer's output. -/
theorem e3_agg : V7 m ρ c main_v76 = val_main_v100 (F := Ideal) (arg m c main_arg0) (arg m c main_arg1) (arg m c main_arg4) (arg m c main_arg5) (arg m c main_arg6) (arg m c main_arg7) (arg m c main_arg8) (arg m c main_arg9) (arg m c main_arg10) (arg m c main_arg11) := by
  show StableHlo.after hostOps3 (W6 m ρ c) (Proc.devRef .tc main_v76) = _
  generalize hR : val_main_v100 (F := Ideal) (arg m c main_arg0) (arg m c main_arg1) (arg m c main_arg4) (arg m c main_arg5) (arg m c main_arg6) (arg m c main_arg7) (arg m c main_arg8) (arg m c main_arg9) (arg m c main_arg10) (arg m c main_arg11) = R
  after_results
  rw [X3 m ρ c, f6_v1 m ρ c, f6_v3 m ρ c, ← hR]
  rfl

theorem e3_Wa : V7 m ρ c main_v60 = val_main_v84 (F := Ideal) (arg m c main_arg8) := by
  show StableHlo.after hostOps3 (W6 m ρ c) (Proc.devRef .tc main_v60) = _
  after_results
  rw [f6_arg8 m ρ c]
  rfl

theorem e3_Wb : V7 m ρ c main_v64 = val_main_v88 (F := Ideal) (arg m c main_arg10) := by
  show StableHlo.after hostOps3 (W6 m ρ c) (Proc.devRef .tc main_v64) = _
  after_results
  rw [f6_arg10 m ρ c]
  rfl

theorem e3_ba (k : Fin 128) : V7 m ρ c main_v77 (ix2 (0 : Fin 1) k) = val_main_v86 (F := Ideal) (arg m c main_arg9) (ix1 k) := by
  have e : V7 m ρ c main_v77 = shapeCast S1x128 (val_main_v86 (F := Ideal) (arg m c main_arg9)) shapeCasts_S128_S1x128 := by
    show StableHlo.after hostOps3 (W6 m ρ c) (Proc.devRef .tc main_v77) = _
    after_results
    rw [f6_arg9 m ρ c]
    rfl
  rw [e]
  exact Cert.KernelBody.shapeCast_row_apply _ shapeCasts_S128_S1x128 k

theorem e3_bb (k : Fin 128) : V7 m ρ c main_v78 (ix2 (0 : Fin 1) k) = val_main_v90 (F := Ideal) (arg m c main_arg11) (ix1 k) := by
  have e : V7 m ρ c main_v78 = shapeCast S1x128 (val_main_v90 (F := Ideal) (arg m c main_arg11)) shapeCasts_S128_S1x128 := by
    show StableHlo.after hostOps3 (W6 m ρ c) (Proc.devRef .tc main_v78) = _
    after_results
    rw [f6_arg11 m ρ c]
    rfl
  rw [e]
  exact Cert.KernelBody.shapeCast_row_apply _ shapeCasts_S128_S1x128 k

/-- Region 3's output array is the reference's layer 4. -/
theorem X4 : W8 m ρ c (Proc.devRef .tc main_v79) = val_main_v111 (F := Ideal) (arg m c main_arg0) (arg m c main_arg1) (arg m c main_arg4) (arg m c main_arg5) (arg m c main_arg6) (arg m c main_arg7) (arg m c main_arg8) (arg m c main_arg9) (arg m c main_arg10) (arg m c main_arg11) := by
  refine (W8_arr m ρ c 6).trans
    ((R3.final (V7 m ρ) c (val_main_v86 (F := Ideal) (arg m c main_arg9)) (val_main_v90 (F := Ideal) (arg m c main_arg11)) (e3_ba m ρ c) (e3_bb m ρ c)).trans ?_)
  rw [e3_h m ρ c, e3_agg m ρ c, e3_Wa m ρ c, e3_Wb m ρ c]
  exact (layer4_eq _ _ _ _ _ _ _ _ _ _).symm

/-! ## Region 4: the arrays it is entered with, and what it leaves -/

theorem f8_arg2 : W8 m ρ c (Proc.devRef .tc main_arg2) = arg m c main_arg2 :=
  (to8 m ρ c main_arg2 (by decide) (by decide) (by decide) (by decide) (by host_keep) (by host_keep) (by host_keep)).trans
    (w1_arg m ρ c main_arg2 (by host_keep))
theorem f8_arg3 : W8 m ρ c (Proc.devRef .tc main_arg3) = arg m c main_arg3 :=
  (to8 m ρ c main_arg3 (by decide) (by decide) (by decide) (by decide) (by host_keep) (by host_keep) (by host_keep)).trans
    (w1_arg m ρ c main_arg3 (by host_keep))
theorem f8_arg13 : W8 m ρ c (Proc.devRef .tc main_arg13) = arg m c main_arg13 :=
  (to8 m ρ c main_arg13 (by decide) (by decide) (by decide) (by decide) (by host_keep) (by host_keep) (by host_keep)).trans
    (w1_arg m ρ c main_arg13 (by host_keep))
theorem f8_arg15 : W8 m ρ c (Proc.devRef .tc main_arg15) = arg m c main_arg15 :=
  (to8 m ρ c main_arg15 (by decide) (by decide) (by decide) (by decide) (by host_keep) (by host_keep) (by host_keep)).trans
    (w1_arg m ρ c main_arg15 (by host_keep))

theorem e4_W1 : V9 m ρ c main_arg12 = arg m c main_arg12 :=
  (to9 m ρ c main_arg12 (by decide) (by decide) (by decide) (by decide) (by host_keep) (by host_keep) (by host_keep) (by host_keep)).trans
    (w1_arg m ρ c main_arg12 (by host_keep))
theorem e4_W2 : V9 m ρ c main_arg14 = arg m c main_arg14 :=
  (to9 m ρ c main_arg14 (by decide) (by decide) (by decide) (by decide) (by host_keep) (by host_keep) (by host_keep) (by host_keep)).trans
    (w1_arg m ρ c main_arg14 (by host_keep))

/-- The pooled graph features: layer 4's output summed over each subgraph's nodes, then over each graph's subgraphs. -/
theorem e4_g : V9 m ρ c main_v85 = val_main_v117 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) := by
  show StableHlo.after hostOps4 (W8 m ρ c) (Proc.devRef .tc main_v85) = _
  generalize hR : val_main_v117 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) = R
  after_results
  rw [X4 m ρ c, f8_arg2 m ρ c, f8_arg3 m ρ c, ← hR]
  rfl

theorem e4_b1 (k : Fin 128) : V9 m ρ c main_v86 (ix2 (0 : Fin 1) k) = arg m c main_arg13 (ix1 k) := by
  have e : V9 m ρ c main_v86 = shapeCast S1x128 (arg m c main_arg13) shapeCasts_S128_S1x128 := by
    show StableHlo.after hostOps4 (W8 m ρ c) (Proc.devRef .tc main_v86) = _
    after_results
    rw [f8_arg13 m ρ c]
    rfl
  rw [e]
  exact Cert.KernelBody.shapeCast_row_apply _ shapeCasts_S128_S1x128 k

theorem e4_b2 (k : Fin 128) : V9 m ρ c main_v87 (ix2 (0 : Fin 1) k) = arg m c main_arg15 (ix1 k) := by
  have e : V9 m ρ c main_v87 = shapeCast S1x128 (arg m c main_arg15) shapeCasts_S128_S1x128 := by
    show StableHlo.after hostOps4 (W8 m ρ c) (Proc.devRef .tc main_v87) = _
    after_results
    rw [f8_arg15 m ρ c]
    rfl
  rw [e]
  exact Cert.KernelBody.shapeCast_row_apply _ shapeCasts_S128_S1x128 k

/-- THE RESULT: region 4's output array is the reference's last stage. -/
theorem X5 : W10 m ρ c (Proc.devRef .tc main_v88) = val_main_v127 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) := by
  refine (W10_arr m ρ c 5).trans
    ((R4.final (V9 m ρ) c (arg m c main_arg13) (arg m c main_arg15) (e4_b1 m ρ c) (e4_b2 m ρ c)).trans ?_)
  rw [e4_g m ρ c, e4_W1 m ρ c, e4_W2 m ρ c]
  exact (val_main_v127_eq_refHead _ _ _ _ _ _ _ _ _ _ _ _ _ _ _ _).symm

end Cert.Bridge.KV

end
-- ==== Proof.Claims.lean ====
/-
  The five claims.  The two kernel programs' frames are their generated frame certificates.  The reference is a host
  program: its run is read back operation by operation, every execution ending with the result at the composed term of
  the arguments and the arguments unchanged, which also gives its frame.  No rewrite was applied when the kernel was
  idealized, so the idealization claim is empty.  For the value claim both programs end, on arguments that agree, at
  ONE function of the arguments: the reference's last stage (the log-softmax head over the pooled output of four
  graph-convolution layers).  The kernel program reaches it region by region; the reference's composed term is that
  stage by unfolding.
-/
import proofs.«151027_j4887672783293_2_alg».proof.Defs
import proofs.«151027_j4887672783293_2_alg».proof.Proof.Gen.Kernel
import proofs.«151027_j4887672783293_2_alg».proof.Proof.Gen.Kernel.Frame
import proofs.«151027_j4887672783293_2_alg».proof.Proof.Gen.KernelIdeal
import proofs.«151027_j4887672783293_2_alg».proof.Proof.Gen.KernelIdeal.Frame
import proofs.«151027_j4887672783293_2_alg».proof.Proof.Gen.ReferenceIdeal
import proofs.«151027_j4887672783293_2_alg».proof.Proof.Gen.Pre_finite_inputs
import proofs.«151027_j4887672783293_2_alg».proof.Proof.RunNamed
import proofs.«151027_j4887672783293_2_alg».proof.Proof.KernelValue

set_option maxRecDepth 16384

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both idealized programs end at the reference's last stage of the (agreeing) arguments. -/
theorem algebraic : Cert.algebraic_KernelIdeal_ReferenceIdeal := by
  intro m ρ m' ρ' _ hagree
  refine ⟨fun c => Cert.ReferenceIdeal.ReadP.val_main_v127 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.Bridge.KV.X5 m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9, h10, h11, h12, h13, h14, h15⟩ := hagree c
    rw [Cert.ReferenceIdeal.ReadP.val_main_v127_eq m' c, h0, h1, h2, h3, h4, h5, h6, h7, h8, h9, h10, h11, h12, h13, h14, h15]

end Cert.Proof.Claims

end
-- ==== Proof.lean ====
/-
  The certificate of a nested graph-isomorphism network: four graph-convolution layers (neighbour sums by gather and
  scatter-add on the host, a two-layer perceptron with rectifiers in a kernel tiled over the 50000 nodes), two pooling
  scatter-adds and a classifier head with a row-wise log-softmax, against the same network written with host
  operations only.  At the ideal instance the two programs compute one function of the arguments: the tiling of the
  perceptron over rows and the in-kernel spelling of the matrix products, biases and row reductions change nothing.
  The claims are proved in Proof/Claims.lean; this file assembles them under the programs' stated side conditions.
-/
import proofs.«151027_j4887672783293_2_alg».proof.Defs
import proofs.«151027_j4887672783293_2_alg».proof.Proof.Gen.Kernel
import proofs.«151027_j4887672783293_2_alg».proof.Proof.Gen.KernelIdeal
import proofs.«151027_j4887672783293_2_alg».proof.Proof.Gen.ReferenceIdeal
import proofs.«151027_j4887672783293_2_alg».proof.Proof.Gen.Pre_finite_inputs
import proofs.«151027_j4887672783293_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
